-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32768 : Shape := ⟨2, ![1024, 32768]⟩
abbrev S1024 : Shape := ⟨1, ![1024]⟩
abbrev S_ : Shape := ⟨0, ![]⟩

class Facts : Prop where
  bcast_S_S1024x32768 : S_.BroadcastsInDim S1024x32768 (![] : Fin 0 → Fin S1024x32768.rank)
  reducesTo_S1024x32768_S_d0_1 : S1024x32768.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v14 : IVec S1024 1) (main_v15 : IVec S1024 32) (main_v16 : IVec S1024 32) : IVec S_ 1 :=
  let main_v17 : IVec S1024 1 := cmpi .slt main_v15 main_v16
  let main_v18 : IVec S1024 1 := andi main_v14 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v3 main_v19
  main_v20

def fn {F : FTy → Type} [FloatOps F] (main_arg0 : FVec F S1024x32768 .f32) (main_arg1 : IVec S1024 32) (main_arg2 : IVec S1024 32) : IVec S_ 1 :=
  let main_v0 : FVec F S1024x32768 .f32 := Host.absf main_arg0
  let main_cst : FVec F S_ .f32 := constant S_ .f32 0x7F800000#32
  let main_v1 : FVec F S1024x32768 .f32 := broadcastInDim S1024x32768 ![] bcast_S_S1024x32768 main_cst
  let main_v2 : IVec S1024x32768 1 := cmpf .olt main_v0 main_v1
  let main_c : IVec S_ 1 := constantI S_ 1 1#1
  let main_v3 : IVec S_ 1 := (fun x v => Host.reduce IntOp.andi x v reducesTo_S1024x32768_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 32768#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_v11 : IVec S1024 1 := andi main_v8 main_v10
  let main_c_3 : IVec S_ 32 := constantI S_ 32 32768#32
  let main_v12 : IVec S1024 32 := broadcastInDim S1024 ![] bcast_S_S1024 main_c_3
  let main_v13 : IVec S1024 1 := cmpi .slt main_arg2 main_v12
  let main_v14 : IVec S1024 1 := andi main_v11 main_v13
  let main_v15 : IVec S1024 32 := addi main_arg1 main_arg2
  let main_c_4 : IVec S_ 32 := constantI S_ 32 32768#32
  let main_v16 : IVec S1024 32 := broadcastInDim S1024 ![] bcast_S_S1024 main_c_4
  fn_part1 (F := F) main_v3 main_v14 main_v15 main_v16
-- ==== Kernel.lean ====
abbrev S1024x32768 : Shape := ⟨2, ![1024, 32768]⟩
abbrev S1024 : Shape := ⟨1, ![1024]⟩
abbrev S1024x1 : Shape := ⟨2, ![1024, 1]⟩
abbrev S512x2048 : Shape := ⟨2, ![512, 2048]⟩
abbrev S512x1 : Shape := ⟨2, ![512, 1]⟩
abbrev S512 : Shape := ⟨1, ![512]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S1024x32768, .f32⟩
  | .hbm, ⟨1, _⟩ => ⟨S1024, .i32⟩
  | .hbm, ⟨2, _⟩ => ⟨S1024, .i32⟩
  | .hbm, ⟨3, _⟩ => ⟨S1024x1, .i32⟩
  | .hbm, ⟨4, _⟩ => ⟨S1024x1, .i32⟩
  | .hbm, ⟨5, _⟩ => ⟨S1024x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S1024x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024_S1024x1 : S1024.ShapeCasts S1024x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  iota_S512x2048_d1_w32 : S512x2048.Iotas .tc 32 [1]
  reducesTo_S1024x1_S_d0_1 : S1024x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x32768.size a
  hwx0_0 : ∀ i : grid0.Coords, EltTy.bits .f32 = 32 ∨ (Rect.block (s := S1024x32768) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S1024x1.size a
  hwx0_1 : ∀ i : grid0.Coords, EltTy.bits .i32 = 32 ∨ (Rect.block (s := S1024x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .i32 = 32 ∨ (Rect.block (s := S1024x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S1024x1.size a
  hwx0_3 : ∀ i : grid0.Coords, EltTy.bits .f32 = 32 ∨ (Rect.block (s := S1024x1) S512x1.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x32768 : Shape := ⟨2, ![1024, 32768]⟩
abbrev S1024 : Shape := ⟨1, ![1024]⟩
abbrev S_ : Shape := ⟨0, ![]⟩
abbrev S1024x1 : Shape := ⟨2, ![1024, 1]⟩
abbrev S32768 : Shape := ⟨1, ![32768]⟩
abbrev S1x32768 : Shape := ⟨2, ![1, 32768]⟩

abbrev nBuf : Space → Nat
  | .hbm => 47
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S1024, .i32⟩
  | .hbm, ⟨2, _⟩ => ⟨S1024, .i32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1024x1, .f32⟩
  | .hbm, ⟨9, _⟩ => ⟨S1024x32768, .f32⟩
  | .hbm, ⟨10, _⟩ => ⟨S1024x32768, .f32⟩
  | .hbm, ⟨11, _⟩ => ⟨S1024x32768, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x1, .f32⟩
  | .hbm, ⟨16, _⟩ => ⟨S1024x32768, .f32⟩
  | .hbm, ⟨17, _⟩ => ⟨S1024x32768, .f32⟩
  | .hbm, ⟨18, _⟩ => ⟨S32768, .i32⟩
  | .hbm, ⟨19, _⟩ => ⟨S1024x1, .i32⟩
  | .hbm, ⟨20, _⟩ => ⟨S1024, .i32⟩
  | .hbm, ⟨21, _⟩ => ⟨S1024x1, .i32⟩
  | .hbm, ⟨22, _⟩ => ⟨S1x32768, .i32⟩
  | .hbm, ⟨23, _⟩ => ⟨S1024x32768, .i32⟩
  | .hbm, ⟨24, _⟩ => ⟨S1024x32768, .i32⟩
  | .hbm, ⟨25, _⟩ => ⟨S1024x32768, .i1⟩
  | .hbm, ⟨26, _⟩ => ⟨S1x32768, .i32⟩
  | .hbm, ⟨27, _⟩ => ⟨S1024x32768, .i32⟩
  | .hbm, ⟨28, _⟩ => ⟨S1024x32768, .i32⟩
  | .hbm, ⟨29, _⟩ => ⟨S1024x32768, .i1⟩
  | .hbm, ⟨30, _⟩ => ⟨S1024x32768, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .f32⟩
  | .hbm, ⟨35, _⟩ => ⟨S_, .f32⟩
  | .hbm, ⟨36, _⟩ => ⟨S_, .f32⟩
  | .hbm, ⟨37, _⟩ => ⟨S1024x32768, .f32⟩
  | .hbm, ⟨38, _⟩ => ⟨S1024x32768, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩

abbrev nD : Nat := 1
abbrev τ : Topo := Topo.v7x

variable {F : FTy → Type} [FloatOps F]

class Facts₀ : Prop where
  reducesTo_S1024x32768_S1024_d1 : S1024x32768.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32768_0_1 : S1024x1.BroadcastsInDim S1024x32768 (![0, 1] : Fin 2 → Fin S1024x32768.rank)
  bcast_S32768_S1x32768_1 : S32768.BroadcastsInDim S1x32768 (![1] : Fin 1 → Fin S1x32768.rank)
  bcast_S1x32768_S1024x32768_0_1 : S1x32768.BroadcastsInDim S1024x32768 (![0, 1] : Fin 2 → Fin S1024x32768.rank)
  bcast_S_S1024x32768 : S_.BroadcastsInDim S1024x32768 (![] : Fin 0 → Fin S1024x32768.rank)
  reducesTo_S1024_S_d0 : S1024.ReducesTo [0] S_

variable [Facts₀]

class Facts : Prop extends Facts₀ where

variable [Facts]
-- ==== Proof.Spec.lean ====
/-
  The two per-row formulas of the cross-entropy loss, and the loss itself, as plain functions of one row.

  A row holds 32768 logits x. Its range is the columns c with t ≤ c ≤ t + p (signed comparisons of 32-bit
  words, the end a wrapping sum, exactly as both programs decide it), and its divisor is p + 1.

  One program subtracts the row's maximum M, takes L = log (∑ exp (x c - M)), sums (x c - M) - L over the
  range, negates and divides by p + 1. The other walks the row in 16 blocks of 2048 columns, carrying a
  running maximum m, the sum s of exponentials rescaled to the running maximum, and the sum sx of the
  logits in the range; after the last block it returns (m + log s) - sx / (p + 1).

  The loss is the mean over the 1024 rows.
-/
import Idealize.ShloMosaic.PureOps.Ideal
import Idealize.ShloMosaic.PureOps.Ideal.Laws

noncomputable section

namespace Cert.Loss

open Idealize.ShloMosaic

/-- Minus infinity, as the programs write it. -/
abbrev negInf : EReal := Ideal.ofBits .f32 0xFF800000#32

/-- Whether column `c` is in the range `[t, t + p]`. -/
def inRange (t p c : BitVec 32) : BitVec 1 :=
  IntOp.andi (IntOp.cmpi .sge c t) (IntOp.cmpi .sle c (IntOp.addi t p))

/-- The divisor `p + 1` as a number. -/
def count (p : BitVec 32) : EReal := (((IntOp.addi p 1#32).toInt : ℝ) : EReal)

/-- The global column word of column `c`. -/
def colWord (c : Fin 32768) : BitVec 32 := BitVec.ofNat 32 c.val

/-- The row loss by the shifted log-softmax. -/
def refRow (x : Fin 32768 → EReal) (t p : BitVec 32) : EReal :=
  let M : EReal := max negInf ((Finset.univ : Finset (Fin 32768)).fold max negInf x)
  let L : EReal := Ideal.log (∑ c : Fin 32768, Ideal.exp (x c - M))
  Ideal.div (-(∑ c : Fin 32768, Scalar.select (inRange t p (colWord c)) ((x c - M) - L) (0 : EReal))) (count p)

/-- The three running values of a row. -/
structure Acc where
  m : EReal
  s : EReal
  sx : EReal

/-- Before the first block. -/
def Acc.init : Acc := ⟨negInf, 0, 0⟩

/-- One block of 2048 columns folded in: `y` its logits, `msk` which of them are in the range. -/
def Acc.step (a : Acc) (y : Fin 2048 → EReal) (msk : Fin 2048 → BitVec 1) : Acc :=
  let m' : EReal := max a.m ((Finset.univ : Finset (Fin 2048)).fold max negInf y)
  ⟨m', a.s * Ideal.exp (a.m - m') + ∑ l : Fin 2048, Ideal.exp (y l - m'),
    a.sx + ∑ l : Fin 2048, Scalar.select (msk l) (y l) (0 : EReal)⟩

/-- Column `l` of block `j` of a row. -/
def blockOf (x : Fin 32768 → EReal) (j : ℕ) (l : Fin 2048) : EReal :=
  x ⟨(j % 16) * 2048 + l.val, by have := l.isLt; have := Nat.mod_lt j (by norm_num : 0 < 16); omega⟩

/-- The column word of column `l` of block `j` as the blocked program computes it: the position inside the
    block plus the block's offset `j * 2048`, in 32-bit words. -/
def blockWord (j : ℕ) (l : Fin 2048) : BitVec 32 :=
  IntOp.addi (BitVec.ofNat 32 l.val) (IntOp.muli (BitVec.ofNat 32 j) 2048#32)

/-- The running values after blocks `0 … n`. -/
def accAfter (x : Fin 32768 → EReal) (t p : BitVec 32) : ℕ → Acc
  | 0 => Acc.init.step (blockOf x 0) (fun l => inRange t p (blockWord 0 l))
  | n + 1 => (accAfter x t p n).step (blockOf x (n + 1)) (fun l => inRange t p (blockWord (n + 1) l))

/-- The row loss by the blocked walk. -/
def kernelRow (x : Fin 32768 → EReal) (t p : BitVec 32) : EReal :=
  ((accAfter x t p 15).m + Ideal.log (accAfter x t p 15).s) - Ideal.div (accAfter x t p 15).sx (count p)

/-- The mean of the 1024 row losses. -/
def total (row : Fin 1024 → EReal) : EReal :=
  Ideal.div (∑ R : Fin 1024, row R) (Ideal.ofBits .f32 0x44800000#32)

end Cert.Loss

end
-- ==== Proof.RowMath.lean ====
/-
  The two per-row formulas of the cross-entropy loss agree on a row of real logits.

  Write X c for the real logits of the row, and K = log (∑ exp (X c)).

  The blocked walk: after each block the running maximum is some real m and the running sum is the sum of
  exp (X c - m) over the columns seen so far, because rescaling by exp (m - m') turns exp (X c - m) into
  exp (X c - m'). For every real m, m + log (∑ exp (X c - m)) = K, so the value of the maximum never
  matters. The third running value is the sum of the logits in the range, the column words of the
  blocked program being the words of the column indices.

  The shifted log-softmax: its maximum M is a real too, so (X c - M) - log (∑ exp (X c - M)) = X c - K.

  The range holds exactly p + 1 columns, so minus the sum over the range of X c - K, divided by p + 1,
  is K minus the mean of the logits in the range, which is what the blocked walk returns.
-/
import proofs.«107537_j26929444946218_1_alg».proof.Proof.Spec
import Mathlib.Order.Interval.Finset.Fin
import Mathlib.Analysis.SpecialFunctions.Log.Basic
import Mathlib.Logic.Equiv.Fin.Basic
import Mathlib.Algebra.BigOperators.Fin
import Mathlib.Tactic.FieldSimp
import Mathlib.Tactic.Ring
import Mathlib.Tactic.Linarith

noncomputable section

namespace Cert.Loss

open Idealize.ShloMosaic

/-- The word the programs write for minus infinity is the bottom of the extended reals. -/
theorem negInf_eq : negInf = (⊥ : EReal) := by
  simp [negInf, Ideal.ofBits, Ideal.ieee]

/-- The maximum of two reals, coerced, is the maximum of the coercions. -/
theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A finite sum of coerced reals is the coercion of the sum. -/
theorem coe_sum' {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The running maximum from minus infinity over a nonempty family of reals is a real. -/
theorem fold_max_real {ι : Type*} (s : Finset ι) (hs : s.Nonempty) (Y : ι → ℝ) :
    ∃ r : ℝ, s.fold max (⊥ : EReal) (fun i => ((Y i : ℝ) : EReal)) = (r : EReal) := by
  induction hs using Finset.Nonempty.cons_induction with
  | singleton a => exact ⟨Y a, by simp⟩
  | cons a s ha hs ih =>
    obtain ⟨r, hr⟩ := ih
    exact ⟨max (Y a) r, by rw [Finset.fold_cons, hr, coe_max']⟩

/-- Column l of block j of a row, as an index of the row. -/
def col (j : ℕ) (l : Fin 2048) : Fin 32768 :=
  ⟨(j % 16) * 2048 + l.val, by have := l.isLt; have := Nat.mod_lt j (by norm_num : 0 < 16); omega⟩

theorem blockOf_eq (x : Fin 32768 → EReal) (j : ℕ) (l : Fin 2048) : blockOf x j l = x (col j l) := rfl

/-- The first block: from minus infinity and the empty sum, the running maximum becomes a real m' and
    the running sum the block's sum of exp (Y l - m'). -/
theorem step_init (Y : Fin 2048 → ℝ) (msk : Fin 2048 → BitVec 1) :
    ∃ m' : ℝ, (Acc.init.step (fun l => ((Y l : ℝ) : EReal)) msk).m = (m' : EReal) ∧
      (Acc.init.step (fun l => ((Y l : ℝ) : EReal)) msk).s
        = ((∑ l : Fin 2048, Real.exp (Y l - m') : ℝ) : EReal) := by
  obtain ⟨r, hr⟩ := fold_max_real (Finset.univ : Finset (Fin 2048)) Finset.univ_nonempty Y
  refine ⟨r, ?_, ?_⟩
  · show max negInf ((Finset.univ : Finset (Fin 2048)).fold max negInf fun l => ((Y l : ℝ) : EReal)) = _
    rw [negInf_eq, hr]
    exact max_eq_right bot_le
  · show (0 : EReal) * Ideal.exp (negInf
          - max negInf ((Finset.univ : Finset (Fin 2048)).fold max negInf fun l => ((Y l : ℝ) : EReal)))
        + ∑ l : Fin 2048, Ideal.exp (((Y l : ℝ) : EReal)
          - max negInf ((Finset.univ : Finset (Fin 2048)).fold max negInf fun l => ((Y l : ℝ) : EReal))) = _
    rw [zero_mul, zero_add, negInf_eq, hr, max_eq_right (bot_le : (⊥ : EReal) ≤ (r : EReal))]
    simp only [← EReal.coe_sub, Ideal.exp_coe, coe_sum']

/-- A later block: real running values m, s become a real m' and
    s * exp (m - m') plus the block's sum of exp (Y l - m'). -/
theorem step_real (a : Acc) (Y : Fin 2048 → ℝ) (msk : Fin 2048 → BitVec 1) (m s : ℝ)
    (hm : a.m = (m : EReal)) (hs : a.s = (s : EReal)) :
    ∃ m' : ℝ, (a.step (fun l => ((Y l : ℝ) : EReal)) msk).m = (m' : EReal) ∧
      (a.step (fun l => ((Y l : ℝ) : EReal)) msk).s
        = ((s * Real.exp (m - m') + ∑ l : Fin 2048, Real.exp (Y l - m') : ℝ) : EReal) := by
  obtain ⟨r, hr⟩ := fold_max_real (Finset.univ : Finset (Fin 2048)) Finset.univ_nonempty Y
  refine ⟨max m r, ?_, ?_⟩
  · show max a.m ((Finset.univ : Finset (Fin 2048)).fold max negInf fun l => ((Y l : ℝ) : EReal)) = _
    rw [hm, negInf_eq, hr, coe_max']
  · show a.s * Ideal.exp (a.m
          - max a.m ((Finset.univ : Finset (Fin 2048)).fold max negInf fun l => ((Y l : ℝ) : EReal)))
        + ∑ l : Fin 2048, Ideal.exp (((Y l : ℝ) : EReal)
          - max a.m ((Finset.univ : Finset (Fin 2048)).fold max negInf fun l => ((Y l : ℝ) : EReal))) = _
    rw [hm, hs, negInf_eq, hr, coe_max']
    simp only [← EReal.coe_sub, Ideal.exp_coe, coe_sum', ← EReal.coe_mul, ← EReal.coe_add]

/-- After blocks 0 … n the running maximum is a real m and the running sum is the sum of
    exp (X c - m) over the columns of those blocks. -/
theorem inv_ms (X : Fin 32768 → ℝ) (t p : BitVec 32) (n : ℕ) :
    ∃ m : ℝ, (accAfter (fun c => ((X c : ℝ) : EReal)) t p n).m = (m : EReal) ∧
      (accAfter (fun c => ((X c : ℝ) : EReal)) t p n).s
        = ((∑ j ∈ Finset.range (n + 1), ∑ l : Fin 2048, Real.exp (X (col j l) - m) : ℝ) : EReal) := by
  induction n with
  | zero =>
    obtain ⟨m', h1, h2⟩ := step_init (fun l => X (col 0 l)) (fun l => inRange t p (blockWord 0 l))
    refine ⟨m', h1, ?_⟩
    rw [Finset.sum_range_one]
    exact h2
  | succ n ih =>
    obtain ⟨m, hm, hs⟩ := ih
    obtain ⟨m', h1, h2⟩ := step_real (accAfter (fun c => ((X c : ℝ) : EReal)) t p n)
      (fun l => X (col (n + 1) l)) (fun l => inRange t p (blockWord (n + 1) l)) m _ hm hs
    refine ⟨m', h1, ?_⟩
    refine h2.trans ?_
    congr 1
    rw [Finset.sum_range_succ _ (n + 1), Finset.sum_mul]
    congr 1
    refine Finset.sum_congr rfl fun j _ => ?_
    rw [Finset.sum_mul]
    refine Finset.sum_congr rfl fun l _ => ?_
    rw [← Real.exp_add]
    congr 1
    ring

/-- After blocks 0 … n the third running value is the sum of the logits in the range over the columns
    of those blocks. -/
theorem inv_sx (x : Fin 32768 → EReal) (t p : BitVec 32) (n : ℕ) :
    (accAfter x t p n).sx
      = ∑ j ∈ Finset.range (n + 1), ∑ l : Fin 2048,
          Scalar.select (inRange t p (blockWord j l)) (blockOf x j l) (0 : EReal) := by
  induction n with
  | zero =>
    show (0 : EReal) + ∑ l : Fin 2048,
        Scalar.select (inRange t p (blockWord 0 l)) (blockOf x 0 l) (0 : EReal) = _
    rw [zero_add, Finset.sum_range_one]
  | succ n ih =>
    show (accAfter x t p n).sx + ∑ l : Fin 2048,
        Scalar.select (inRange t p (blockWord (n + 1) l)) (blockOf x (n + 1) l) (0 : EReal) = _
    rw [ih, Finset.sum_range_succ _ (n + 1)]

/-- Sixteen blocks of 2048 columns are the whole row. -/
theorem sum_blocks {α : Type*} [AddCommMonoid α] (f : Fin 32768 → α) :
    ∑ j ∈ Finset.range 16, ∑ l : Fin 2048, f (col j l) = ∑ c : Fin 32768, f c := by
  rw [Finset.sum_range (fun j => ∑ l : Fin 2048, f (col j l)),
    ← Fintype.sum_prod_type' (fun (j : Fin 16) (l : Fin 2048) => f (col j.val l))]
  refine Fintype.sum_equiv (finProdFinEquiv : Fin 16 × Fin 2048 ≃ Fin 32768) _ _ ?_
  rintro ⟨j, l⟩
  congr 1
  apply Fin.ext
  have hj := j.isLt
  simp only [col, finProdFinEquiv_apply_val, Nat.mod_eq_of_lt hj]
  omega

/-- The blocked program's column word is the word of the column's index in the row. -/
theorem blockWord_eq (j : ℕ) (hj : j < 16) (l : Fin 2048) : blockWord j l = colWord (col j l) := by
  have hl := l.isLt
  apply BitVec.eq_of_toNat_eq
  simp only [blockWord, colWord, col, IntOp.addi, IntOp.muli, BitVec.toNat_add, BitVec.toNat_mul,
    BitVec.toNat_ofNat, Nat.mod_eq_of_lt hj]
  omega

/-- The word of a column index, read as a signed number, is the index. -/
theorem colWord_toInt (c : Fin 32768) : (colWord c).toInt = (c.val : ℤ) := by
  have hc := c.isLt
  rw [colWord, BitVec.toInt_ofNat', Int.bmod_def]
  omega

/-- The end of the range does not wrap. -/
theorem toInt_addi_tp (t p : BitVec 32) (ht : 0 ≤ t.toInt) (hp : 0 ≤ p.toInt)
    (htp : t.toInt + p.toInt < 32768) : (IntOp.addi t p).toInt = t.toInt + p.toInt := by
  rw [IntOp.addi, BitVec.toInt_add, Int.bmod_def]
  omega

/-- The divisor does not wrap. -/
theorem toInt_addi_one (p : BitVec 32) (hp : 0 ≤ p.toInt) (hp' : p.toInt < 32768) :
    (IntOp.addi p 1#32).toInt = p.toInt + 1 := by
  have h1 : (1#32 : BitVec 32).toInt = 1 := by decide
  rw [IntOp.addi, BitVec.toInt_add, h1, Int.bmod_def]
  omega

/-- A column is in the range exactly when its index lies between t and t + p. -/
theorem inRange_iff (t p : BitVec 32) (ht : 0 ≤ t.toInt) (hp : 0 ≤ p.toInt)
    (htp : t.toInt + p.toInt < 32768) (c : Fin 32768) :
    inRange t p (colWord c) = 1 ↔ (t.toInt ≤ (c.val : ℤ) ∧ (c.val : ℤ) ≤ t.toInt + p.toInt) := by
  rw [inRange, IntOp.andi, IntOp.cmpi, IntOp.cmpi]
  simp only [BitVec.ofBool_and_ofBool]
  rw [BitVec.sle_eq_decide, BitVec.sle_eq_decide, toInt_addi_tp t p ht hp htp, colWord_toInt]
  by_cases h1 : t.toInt ≤ (c.val : ℤ) <;> by_cases h2 : (c.val : ℤ) ≤ t.toInt + p.toInt <;>
    simp [h1, h2]

/-- The range holds p + 1 columns. -/
theorem card_range (t p : BitVec 32) (ht : 0 ≤ t.toInt) (hp : 0 ≤ p.toInt)
    (htp : t.toInt + p.toInt < 32768) :
    (((Finset.univ.filter (fun c : Fin 32768 => inRange t p (colWord c) = 1)).card : ℕ) : ℤ)
      = p.toInt + 1 := by
  have hT : t.toInt.toNat + p.toInt.toNat < 32768 := by omega
  have hfilter : Finset.univ.filter (fun c : Fin 32768 => inRange t p (colWord c) = 1)
      = Finset.Icc (⟨t.toInt.toNat, by omega⟩ : Fin 32768) ⟨t.toInt.toNat + p.toInt.toNat, hT⟩ := by
    ext c
    simp only [Finset.mem_filter, Finset.mem_univ, true_and, Finset.mem_Icc, Fin.le_def,
      inRange_iff t p ht hp htp c]
    omega
  rw [hfilter, Fin.card_Icc]
  simp only []
  omega

/-- The logarithm of the row's sum of exponentials. -/
def lse (X : Fin 32768 → ℝ) : ℝ := Real.log (∑ c : Fin 32768, Real.exp (X c))

theorem sum_exp_pos (X : Fin 32768 → ℝ) (M : ℝ) : 0 < ∑ c : Fin 32768, Real.exp (X c - M) :=
  Finset.sum_pos (fun c _ => Real.exp_pos _) Finset.univ_nonempty

/-- Shifting by any real M and adding it back gives the same logarithm of the sum of exponentials. -/
theorem lse_shift (X : Fin 32768 → ℝ) (M : ℝ) :
    M + Real.log (∑ c : Fin 32768, Real.exp (X c - M)) = lse X := by
  have hpos : 0 < ∑ c : Fin 32768, Real.exp (X c) := by
    have := sum_exp_pos X 0
    simpa using this
  have hdiv : ∑ c : Fin 32768, Real.exp (X c - M) = (∑ c : Fin 32768, Real.exp (X c)) / Real.exp M := by
    rw [Finset.sum_div]
    refine Finset.sum_congr rfl fun c _ => ?_
    rw [Real.exp_sub]
  rw [hdiv, Real.log_div hpos.ne' (Real.exp_ne_zero M), Real.log_exp, lse]
  ring

/-- The logarithm of a coerced positive sum of exponentials. -/
theorem log_sum_exp (X : Fin 32768 → ℝ) (M : ℝ) :
    Ideal.log (((∑ c : Fin 32768, Real.exp (X c - M) : ℝ)) : EReal)
      = ((Real.log (∑ c : Fin 32768, Real.exp (X c - M)) : ℝ) : EReal) := by
  rw [Ideal.log_coe, if_neg (not_le.mpr (sum_exp_pos X M))]

/-- A sum of coerced reals selected by a family of bits is the coercion of the selected real sum. -/
theorem sum_select_coe (b : Fin 32768 → BitVec 1) (Z : Fin 32768 → ℝ) :
    ∑ c : Fin 32768, Scalar.select (b c) ((Z c : ℝ) : EReal) (0 : EReal)
      = ((∑ c : Fin 32768, (if b c = 1 then Z c else 0) : ℝ) : EReal) := by
  rw [← coe_sum']
  refine Finset.sum_congr rfl fun c _ => ?_
  show (if b c = 1 then ((Z c : ℝ) : EReal) else 0) = (((if b c = 1 then Z c else 0 : ℝ)) : EReal)
  by_cases h : b c = 1
  · rw [if_pos h, if_pos h]
  · rw [if_neg h, if_neg h, EReal.coe_zero]

/-- The blocked walk returns the logarithm of the sum of exponentials minus the mean of the logits in
    the range. -/
theorem kernelRow_real (X : Fin 32768 → ℝ) (t p : BitVec 32) :
    kernelRow (fun c => ((X c : ℝ) : EReal)) t p
      = ((lse X : ℝ) : EReal)
        - Ideal.div (((∑ c : Fin 32768, (if inRange t p (colWord c) = 1 then X c else 0) : ℝ)) : EReal)
            (count p) := by
  obtain ⟨m, hm, hs⟩ := inv_ms X t p 15
  have e1 : ∑ j ∈ Finset.range (15 + 1), ∑ l : Fin 2048, Real.exp (X (col j l) - m)
      = ∑ c : Fin 32768, Real.exp (X c - m) := sum_blocks (fun c => Real.exp (X c - m))
  have e2 : (accAfter (fun c => ((X c : ℝ) : EReal)) t p 15).sx
      = ((∑ c : Fin 32768, (if inRange t p (colWord c) = 1 then X c else 0) : ℝ) : EReal) := by
    rw [inv_sx, ← sum_select_coe (fun c => inRange t p (colWord c)) X,
      ← sum_blocks (fun c => Scalar.select (inRange t p (colWord c)) ((X c : ℝ) : EReal) (0 : EReal))]
    refine Finset.sum_congr rfl fun j hj => ?_
    refine Finset.sum_congr rfl fun l _ => ?_
    rw [blockWord_eq j (Finset.mem_range.mp hj) l, blockOf_eq]
  rw [kernelRow, hm, hs, e1, e2, log_sum_exp, ← EReal.coe_add, lse_shift]

/-- The shifted log-softmax returns minus the sum over the range of the logits less the logarithm of
    the sum of exponentials, divided by the count. -/
theorem refRow_real (X : Fin 32768 → ℝ) (t p : BitVec 32) :
    refRow (fun c => ((X c : ℝ) : EReal)) t p
      = Ideal.div (-(((∑ c : Fin 32768,
          (if inRange t p (colWord c) = 1 then X c - lse X else 0) : ℝ)) : EReal)) (count p) := by
  obtain ⟨Mr, hM⟩ := fold_max_real (Finset.univ : Finset (Fin 32768)) Finset.univ_nonempty X
  have hL : Real.log (∑ c : Fin 32768, Real.exp (X c - Mr)) = lse X - Mr := by
    have := lse_shift X Mr
    linarith
  show Ideal.div (-(∑ c : Fin 32768, Scalar.select (inRange t p (colWord c))
      ((((X c : ℝ) : EReal) - max negInf ((Finset.univ : Finset (Fin 32768)).fold max negInf
          fun c => ((X c : ℝ) : EReal)))
        - Ideal.log (∑ c : Fin 32768, Ideal.exp (((X c : ℝ) : EReal)
          - max negInf ((Finset.univ : Finset (Fin 32768)).fold max negInf
              fun c => ((X c : ℝ) : EReal))))) (0 : EReal))) (count p) = _
  rw [negInf_eq, hM, max_eq_right (bot_le : (⊥ : EReal) ≤ (Mr : EReal))]
  simp only [← EReal.coe_sub, Ideal.exp_coe, coe_sum']
  rw [log_sum_exp, hL]
  simp only [← EReal.coe_sub]
  have hsub : ∀ c : Fin 32768, X c - Mr - (lse X - Mr) = X c - lse X := fun c => by ring
  simp only [hsub]
  rw [sum_select_coe (fun c => inRange t p (colWord c)) (fun c => X c - lse X)]

/-- The real arithmetic of the two means: with N the number of selected columns and K any real,
    minus the selected sum of X c - K over N is K minus the selected sum of X c over N. -/
theorem mean_shift (X : Fin 32768 → ℝ) (b : Fin 32768 → Prop) [DecidablePred b] (K N : ℝ)
    (hN : N = ((Finset.univ.filter b).card : ℝ)) (hN0 : N ≠ 0) :
    -(∑ c : Fin 32768, if b c then X c - K else 0) * (1 / N)
      = K - (∑ c : Fin 32768, if b c then X c else 0) * (1 / N) := by
  have h : ∑ c : Fin 32768, (if b c then X c - K else 0)
      = (∑ c : Fin 32768, if b c then X c else 0) - N * K := by
    rw [← Finset.sum_filter, ← Finset.sum_filter, Finset.sum_sub_distrib, Finset.sum_const,
      nsmul_eq_mul, hN]
  rw [h]
  field_simp
  ring

/-- The two per-row formulas agree on a row of real logits whose range lies inside the row. -/
theorem kernelRow_eq_refRow (x : Fin 32768 → EReal) (t p : BitVec 32)
    (hx : ∀ c, ∃ r : ℝ, x c = (r : EReal))
    (ht : 0 ≤ t.toInt) (hp : 0 ≤ p.toInt) (htp : t.toInt + p.toInt < 32768) :
    kernelRow x t p = refRow x t p := by
  choose X hX using hx
  obtain rfl : x = fun c => ((X c : ℝ) : EReal) := funext hX
  have hcount : count p = (((p.toInt + 1 : ℤ) : ℝ) : EReal) := by
    rw [count, toInt_addi_one p hp (by omega)]
  have hN : (((p.toInt + 1 : ℤ) : ℝ))
      = (((Finset.univ.filter (fun c : Fin 32768 => inRange t p (colWord c) = 1)).card : ℕ) : ℝ) := by
    rw [← card_range t p ht hp htp]
    exact Int.cast_natCast _
  have hN0 : (((p.toInt + 1 : ℤ) : ℝ)) ≠ 0 := by
    have : (0 : ℤ) < p.toInt + 1 := by omega
    exact_mod_cast this.ne'
  rw [kernelRow_real, refRow_real, hcount, Ideal.div_coe hN0, Ideal.div_coe hN0, ← EReal.coe_neg,
    ← EReal.coe_mul, ← EReal.coe_mul, ← EReal.coe_sub]
  exact congrArg Real.toEReal
    (mean_shift X (fun c => inRange t p (colWord c) = 1) (lse X) _ hN hN0).symm

end Cert.Loss

end
-- ==== Proof.PreFacts.lean ====
/-
  The precondition, decoded.

  The precondition is one bit: the conjunction of "every logit has absolute value below plus infinity" with
  "for every row the words t and p satisfy 0 ≤ t < 32768, 0 ≤ p < 32768 and t + p < 32768", the last sum a
  wrapping one and every comparison signed. When the bit is 1 every logit is a real number, and for every row
  the two words, read as signed integers, are nonnegative with their true sum below 32768: from
  0 ≤ t, p < 32768 the true sum lies in [0, 65536), far inside the signed range, so the wrapping sum is the
  true one.
-/
import proofs.«107537_j26929444946218_1_alg».proof.Pre_finite_inputs
import Idealize.ShloMosaic.Lib.ReduceAll
import Idealize.ShloMosaic.Lib.ValueIdx
import Idealize.ShloMosaic.PureOps.Ideal.Laws

namespace Cert.PreFacts

open Idealize.ShloMosaic Cert.Pre_finite_inputs

/-- The rank-zero shape has one index. -/
instance : Subsingleton S_.Idx := ⟨fun _ _ => funext fun d => d.elim0⟩

/-- The word 0x7F800000 is plus infinity. -/
theorem posInf_eq_top : Ideal.ofBits .f32 0x7F800000#32 = (⊤ : EReal) := by
  simp [Ideal.ofBits, Ideal.ieee]

/-- An extended real whose absolute value is strictly below plus infinity is a real number. -/
theorem real_of_abs_lt_posInf (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | top => simp [Ideal.cmp] at h
  | coe r => exact ⟨r, rfl⟩

/-- The five comparisons of a row, all true: both words nonnegative and their true sum below 32768. -/
theorem words_of_chain (t p : BitVec 32)
    (h : IntOp.andi (IntOp.andi (IntOp.andi (IntOp.andi (IntOp.cmpi .sge t 0#32) (IntOp.cmpi .slt t 32768#32))
          (IntOp.cmpi .sge p 0#32)) (IntOp.cmpi .slt p 32768#32)) (IntOp.cmpi .slt (IntOp.addi t p) 32768#32) = 1#1) :
    0 ≤ t.toInt ∧ 0 ≤ p.toInt ∧ t.toInt + p.toInt < 32768 := by
  obtain ⟨h4, hs⟩ := IntOp.andi_eq_one.1 h
  obtain ⟨h3, hp2⟩ := IntOp.andi_eq_one.1 h4
  obtain ⟨h2, hp1⟩ := IntOp.andi_eq_one.1 h3
  obtain ⟨ht1, ht2⟩ := IntOp.andi_eq_one.1 h2
  have z0 : (0#32 : BitVec 32).toInt = 0 := by decide
  have z1 : (32768#32 : BitVec 32).toInt = 32768 := by decide
  rw [IntOp.cmpi_sge, z0] at ht1 hp1
  rw [IntOp.cmpi_slt, z1] at ht2 hp2 hs
  have hadd : (IntOp.addi t p).toInt = (t.toInt + p.toInt).bmod (2 ^ 32) := BitVec.toInt_add t p
  rw [hadd, Int.bmod_def] at hs
  refine ⟨ht1, hp1, ?_⟩
  split at hs <;> omega

/-- The precondition read back: every logit is a real number, and in every row both words are nonnegative
    with their true sum below 32768. -/
theorem of_pre [Facts] (X : FVec Ideal S1024x32768 .f32) (T P : IVec S1024 32)
    (h : fn (F := Ideal) X T P = fun _ => 1#1) :
    (∀ (R : Fin 1024) (c : Fin 32768), ∃ r : ℝ, X (ValueIdx.ix2 R c) = (r : EReal))
    ∧ ∀ R : Fin 1024, 0 ≤ (T (ValueIdx.ix1 R)).toInt ∧ 0 ≤ (P (ValueIdx.ix1 R)).toInt
        ∧ (T (ValueIdx.ix1 R)).toInt + (P (ValueIdx.ix1 R)).toInt < 32768 := by
  have h0 := congrFun h ValueIdx.ix0
  dsimp only [fn, fn_part1, andi] at h0
  obtain ⟨hx, hi⟩ := IntOp.andi_eq_one.1 h0
  constructor
  · intro R c
    exact real_of_abs_lt_posInf _ (Host.reduce_andi_all _ _ _ _ ValueIdx.ix0 hx (ValueIdx.ix2 R c))
  · intro R
    exact words_of_chain _ _ (Host.reduce_andi_all _ _ _ _ ValueIdx.ix0 hi (ValueIdx.ix1 R))

end Cert.PreFacts
-- ==== Proof.RefRun.lean ====
/-
  The reference program's run, read back. Its @main is a straight line of 44 host operations (the two functions
  it calls, the shifted log-softmax and the masked select, stand inline at their call sites). Run from any
  memory, every weakly fair execution terminates, the three argument arrays are unchanged, and the result
  buffer holds the operations' composed pure term of the argument arrays: the maximum and the sum of
  exponentials along each row, the logarithm, the masked sum along each row, its negation and quotient by the
  row's count, and the mean over the rows.
-/
import proofs.«107537_j26929444946218_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A transport along an equation between a type and itself changes nothing (stated as a rewriting rule, so that a
    long term is cleared of such transports one subterm at a time). -/
theorem cast_same {α : Sort _} (h : α = α) (a : α) : cast h a = a := (cast_eq h a).trans rfl

/-- @main's 44 operations, in order (a called function's operations stand in its call's place, spelt `TRef.…`). -/
abbrev ops : List (HloOp τ sig (Elt F)) :=
  [ TRef.nullary (TRef.of (T := ⟨S_, .f32⟩) main_call0_cst) (constant S_ .f32 0xFF800000#32),
    TRef.binary (TRef.of (T := ⟨S1024x32768, .f32⟩) main_arg0) (TRef.of (T := ⟨S_, .f32⟩) main_call0_cst) (TRef.of (T := ⟨S1024, .f32⟩) main_call0_v0) (fun x v => Host.reduce FloatOps.maximumf x v reducesTo_S1024x32768_S1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_call0_v0) (TRef.of (T := ⟨S1024, .f32⟩) main_call0_v2) maximumf,
    TRef.unary (TRef.of (T := ⟨S1024, .f32⟩) main_call0_v2) (TRef.of (T := ⟨S1024x1, .f32⟩) main_call0_v3) (broadcastInDim S1024x1 ![0] bcast_S1024_S1024x1_0),
    TRef.unary (TRef.of (T := ⟨S1024x1, .f32⟩) main_call0_v3) (TRef.of (T := ⟨S1024x32768, .f32⟩) main_call0_v4) (broadcastInDim S1024x32768 ![0, 1] bcast_S1024x1_S1024x32768_0_1),
    TRef.binary (TRef.of (T := ⟨S1024x32768, .f32⟩) main_arg0) (TRef.of (T := ⟨S1024x32768, .f32⟩) main_call0_v4) (TRef.of (T := ⟨S1024x32768, .f32⟩) main_call0_v5) subf,
    TRef.unary (TRef.of (T := ⟨S1024x32768, .f32⟩) main_call0_v5) (TRef.of (T := ⟨S1024x32768, .f32⟩) main_call0_v6) Host.exp,
    TRef.nullary (TRef.of (T := ⟨S_, .f32⟩) main_call0_cst_1) (constant S_ .f32 0x00000000#32),
    TRef.binary (TRef.of (T := ⟨S1024x32768, .f32⟩) main_call0_v6) (TRef.of (T := ⟨S_, .f32⟩) main_call0_cst_1) (TRef.of (T := ⟨S1024, .f32⟩) main_call0_v7) (fun x v => Host.reduceAdd x v reducesTo_S1024x32768_S1024_d1 h_S_),
    TRef.unary (TRef.of (T := ⟨S1024, .f32⟩) main_call0_v7) (TRef.of (T := ⟨S1024x1, .f32⟩) main_call0_v8) (broadcastInDim S1024x1 ![0] bcast_S1024_S1024x1_0),
    TRef.unary (TRef.of (T := ⟨S1024x1, .f32⟩) main_call0_v8) (TRef.of (T := ⟨S1024x1, .f32⟩) main_call0_v9) Host.log,
    TRef.unary (TRef.of (T := ⟨S1024x1, .f32⟩) main_call0_v9) (TRef.of (T := ⟨S1024x32768, .f32⟩) main_call0_v10) (broadcastInDim S1024x32768 ![0, 1] bcast_S1024x1_S1024x32768_0_1),
    TRef.binary (TRef.of (T := ⟨S1024x32768, .f32⟩) main_call0_v5) (TRef.of (T := ⟨S1024x32768, .f32⟩) main_call0_v10) (TRef.of (T := ⟨S1024x32768, .f32⟩) main_v0) subf,
    nullary main_v1 (iotaInDim S32768 32 0),
    unary main_arg1 main_v2 (broadcastInDim S1024x1 ![0] bcast_S1024_S1024x1_0 : (⟨S1024, .i32⟩ : BufTy).Contents (Elt F) → (⟨S1024x1, .i32⟩ : BufTy).Contents (Elt F)),
    binary main_arg1 main_arg2 main_v3 (addi : (⟨S1024, .i32⟩ : BufTy).Contents (Elt F) → (⟨S1024, .i32⟩ : BufTy).Contents (Elt F) → (⟨S1024, .i32⟩ : BufTy).Contents (Elt F)),
    unary main_v3 main_v4 (broadcastInDim S1024x1 ![0] bcast_S1024_S1024x1_0 : (⟨S1024, .i32⟩ : BufTy).Contents (Elt F) → (⟨S1024x1, .i32⟩ : BufTy).Contents (Elt F)),
    unary main_v1 main_v5 (broadcastInDim S1x32768 ![1] bcast_S32768_S1x32768_1 : (⟨S32768, .i32⟩ : BufTy).Contents (Elt F) → (⟨S1x32768, .i32⟩ : BufTy).Contents (Elt F)),
    unary main_v5 main_v6 (broadcastInDim S1024x32768 ![0, 1] bcast_S1x32768_S1024x32768_0_1 : (⟨S1x32768, .i32⟩ : BufTy).Contents (Elt F) → (⟨S1024x32768, .i32⟩ : BufTy).Contents (Elt F)),
    unary main_v2 main_v7 (broadcastInDim S1024x32768 ![0, 1] bcast_S1024x1_S1024x32768_0_1 : (⟨S1024x1, .i32⟩ : BufTy).Contents (Elt F) → (⟨S1024x32768, .i32⟩ : BufTy).Contents (Elt F)),
    binary main_v6 main_v7 main_v8 (cmpi .sge : (⟨S1024x32768, .i32⟩ : BufTy).Contents (Elt F) → (⟨S1024x32768, .i32⟩ : BufTy).Contents (Elt F) → (⟨S1024x32768, .i1⟩ : BufTy).Contents (Elt F)),
    unary main_v1 main_v9 (broadcastInDim S1x32768 ![1] bcast_S32768_S1x32768_1 : (⟨S32768, .i32⟩ : BufTy).Contents (Elt F) → (⟨S1x32768, .i32⟩ : BufTy).Contents (Elt F)),
    unary main_v9 main_v10 (broadcastInDim S1024x32768 ![0, 1] bcast_S1x32768_S1024x32768_0_1 : (⟨S1x32768, .i32⟩ : BufTy).Contents (Elt F) → (⟨S1024x32768, .i32⟩ : BufTy).Contents (Elt F)),
    unary main_v4 main_v11 (broadcastInDim S1024x32768 ![0, 1] bcast_S1024x1_S1024x32768_0_1 : (⟨S1024x1, .i32⟩ : BufTy).Contents (Elt F) → (⟨S1024x32768, .i32⟩ : BufTy).Contents (Elt F)),
    binary main_v10 main_v11 main_v12 (cmpi .sle : (⟨S1024x32768, .i32⟩ : BufTy).Contents (Elt F) → (⟨S1024x32768, .i32⟩ : BufTy).Contents (Elt F) → (⟨S1024x32768, .i1⟩ : BufTy).Contents (Elt F)),
    binary main_v8 main_v12 main_v13 (andi : (⟨S1024x32768, .i1⟩ : BufTy).Contents (Elt F) → (⟨S1024x32768, .i1⟩ : BufTy).Contents (Elt F) → (⟨S1024x32768, .i1⟩ : BufTy).Contents (Elt F)),
    nullary main_c (constantI S_ 32 1#32),
    unary main_c main_v14 (broadcastInDim S1024 ![] bcast_S_S1024 : (⟨S_, .i32⟩ : BufTy).Contents (Elt F) → (⟨S1024, .i32⟩ : BufTy).Contents (Elt F)),
    binary main_arg2 main_v14 main_v15 (addi : (⟨S1024, .i32⟩ : BufTy).Contents (Elt F) → (⟨S1024, .i32⟩ : BufTy).Contents (Elt F) → (⟨S1024, .i32⟩ : BufTy).Contents (Elt F)),
    unary main_v15 main_v16 (sitofp .f32 : (⟨S1024, .i32⟩ : BufTy).Contents (Elt F) → (⟨S1024, .f32⟩ : BufTy).Contents (Elt F)),
    nullary main_cst (constant S_ .f32 0x00000000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S1024x32768, .f32⟩) main_call1_v1) (broadcastInDim S1024x32768 ![] bcast_S_S1024x32768),
    TRef.ternary (TRef.of (T := ⟨S1024x32768, .i1⟩) main_v13) (TRef.of (T := ⟨S1024x32768, .f32⟩) main_v0) (TRef.of (T := ⟨S1024x32768, .f32⟩) main_call1_v1) (TRef.of (T := ⟨S1024x32768, .f32⟩) main_v17) select,
    nullary main_cst_0 (constant S_ .f32 0x00000000#32),
    binary main_v17 main_cst_0 main_v18 ((fun x v => Host.reduceAdd x v reducesTo_S1024x32768_S1024_d1 h_S_) : (⟨S1024x32768, .f32⟩ : BufTy).Contents (Elt F) → (⟨S_, .f32⟩ : BufTy).Contents (Elt F) → (⟨S1024, .f32⟩ : BufTy).Contents (Elt F)),
    unary main_v18 main_v19 (Host.negf : (⟨S1024, .f32⟩ : BufTy).Contents (Elt F) → (⟨S1024, .f32⟩ : BufTy).Contents (Elt F)),
    binary main_v19 main_v16 main_v20 (Host.divf : (⟨S1024, .f32⟩ : BufTy).Contents (Elt F) → (⟨S1024, .f32⟩ : BufTy).Contents (Elt F) → (⟨S1024, .f32⟩ : BufTy).Contents (Elt F)),
    nullary main_cst_1 (constant S_ .f32 0x00000000#32),
    binary main_v20 main_cst_1 main_v21 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_2 (constant S_ .f32 0x44800000#32),
    binary main_v21 main_cst_2 main_v22 (Host.divf : (⟨S_, .f32⟩ : BufTy).Contents (Elt F) → (⟨S_, .f32⟩ : BufTy).Contents (Elt F) → (⟨S_, .f32⟩ : BufTy).Contents (Elt F)) ]

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., binary_bufs_sub .., binary_bufs_sub .., nullary_bufs_sub .., unary_bufs_sub .., binary_bufs_sub .., unary_bufs_sub .., nullary_bufs_sub .., unary_bufs_sub .., unary_bufs_sub .., ternary_bufs_sub .., nullary_bufs_sub .., binary_bufs_sub .., unary_bufs_sub .., binary_bufs_sub .., nullary_bufs_sub .., binary_bufs_sub .., nullary_bufs_sub .., binary_bufs_sub ..⟩

set_option maxRecDepth 16384 in
set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = Host.divf (Host.reduceAdd (Host.divf (Host.negf (Host.reduceAdd (select (andi (cmpi .sge (broadcastInDim S1024x32768 ![0, 1] bcast_S1x32768_S1024x32768_0_1 (broadcastInDim S1x32768 ![1] bcast_S32768_S1x32768_1 (iotaInDim S32768 32 0))) (broadcastInDim S1024x32768 ![0, 1] bcast_S1024x1_S1024x32768_0_1 (broadcastInDim S1024x1 ![0] bcast_S1024_S1024x1_0 (m ((c.tc : Thread nD τ).loc main_arg1))))) (cmpi .sle (broadcastInDim S1024x32768 ![0, 1] bcast_S1x32768_S1024x32768_0_1 (broadcastInDim S1x32768 ![1] bcast_S32768_S1x32768_1 (iotaInDim S32768 32 0))) (broadcastInDim S1024x32768 ![0, 1] bcast_S1024x1_S1024x32768_0_1 (broadcastInDim S1024x1 ![0] bcast_S1024_S1024x1_0 (addi (m ((c.tc : Thread nD τ).loc main_arg1)) (m ((c.tc : Thread nD τ).loc main_arg2))))))) (subf (subf (m ((c.tc : Thread nD τ).loc main_arg0)) (broadcastInDim S1024x32768 ![0, 1] bcast_S1024x1_S1024x32768_0_1 (broadcastInDim S1024x1 ![0] bcast_S1024_S1024x1_0 (maximumf (broadcastInDim S1024 ![] bcast_S_S1024 (constant S_ .f32 0xFF800000#32)) (Host.reduce FloatOps.maximumf (m ((c.tc : Thread nD τ).loc main_arg0)) (constant S_ .f32 0xFF800000#32) reducesTo_S1024x32768_S1024_d1 h_S_))))) (broadcastInDim S1024x32768 ![0, 1] bcast_S1024x1_S1024x32768_0_1 (Host.log (broadcastInDim S1024x1 ![0] bcast_S1024_S1024x1_0 (Host.reduceAdd (Host.exp (subf (m ((c.tc : Thread nD τ).loc main_arg0)) (broadcastInDim S1024x32768 ![0, 1] bcast_S1024x1_S1024x32768_0_1 (broadcastInDim S1024x1 ![0] bcast_S1024_S1024x1_0 (maximumf (broadcastInDim S1024 ![] bcast_S_S1024 (constant S_ .f32 0xFF800000#32)) (Host.reduce FloatOps.maximumf (m ((c.tc : Thread nD τ).loc main_arg0)) (constant S_ .f32 0xFF800000#32) reducesTo_S1024x32768_S1024_d1 h_S_)))))) (constant S_ .f32 0x00000000#32) reducesTo_S1024x32768_S1024_d1 h_S_))))) (broadcastInDim S1024x32768 ![] bcast_S_S1024x32768 (id (constant S_ .f32 0x00000000#32)))) (constant S_ .f32 0x00000000#32) reducesTo_S1024x32768_S1024_d1 h_S_)) (sitofp .f32 (addi (m ((c.tc : Thread nD τ).loc main_arg2)) (broadcastInDim S1024 ![] bcast_S_S1024 (constantI S_ 32 1#32))))) (constant S_ .f32 0x00000000#32) reducesTo_S1024_S_d0 h_S_) (constant S_ .f32 0x44800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (by after_results_simp <;> simp only [cast_same]),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.RefValue.lean ====
/-
  The reference's result, read row by row.

  The reference takes each row x of the 1024 x 32768 logits, shifts it by M = max(-inf, max_c x c), takes
  L = log (∑_c exp (x c - M)), keeps (x c - M) - L on the columns c with t ≤ c ≤ t + p (signed comparisons of
  32-bit words, the end a wrapping sum, the column word the column's number) and 0 elsewhere, sums the kept
  values over the row, negates, and divides by p + 1 read as a signed integer; the result is the sum of the
  1024 row values divided by 1024.0. Every array operation in between is pointwise or repeats a column or a
  row, so each stage is read at (R, c) or at R from the stage before, and the two sums along a row and the row
  maximum are the sum and the fold of max over the row's 32768 columns. The sum over the rows is re-indexed
  from the one-coordinate indices to the row numbers.
-/
import proofs.«107537_j26929444946218_1_alg».proof.Proof.Gen.ReferenceIdeal
import proofs.«107537_j26929444946218_1_alg».proof.Proof.Spec
import proofs.«107537_j26929444946218_1_alg».proof.Proof.LibAxisReads
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Repeating a value, a column or a row, read at an index -/

variable {α : Type}

/-- A rank-zero value repeated along the rows. -/
theorem rep_scalar_rows (v : S_.Idx → α) (R : Fin 1024) :
    broadcastInDim S1024 ![] bcast_S_S1024 v (ix1 R) = v ix0 :=
  broadcastInDim_apply _ bcast_S_S1024 v (ix1 R) ix0 (fun a => a.elim0)

/-- A rank-zero value repeated over the whole matrix. -/
theorem rep_scalar_full (v : S_.Idx → α) (R : Fin 1024) (c : Fin 32768) :
    broadcastInDim S1024x32768 ![] bcast_S_S1024x32768 v (ix2 R c) = v ix0 :=
  broadcastInDim_apply _ bcast_S_S1024x32768 v (ix2 R c) ix0 (fun a => a.elim0)

/-- A vector over the rows stood up as a column. -/
theorem col_of_rows (v : S1024.Idx → α) (R : Fin 1024) (u : Fin 1) :
    broadcastInDim S1024x1 ![0] bcast_S1024_S1024x1_0 v (ix2 R u) = v (ix1 R) :=
  broadcastInDim_apply _ bcast_S1024_S1024x1_0 v (ix2 R u) (ix1 R) (fun a => match a with
    | ⟨0, _⟩ => by show R.val = if (1024 : Nat) = 1 then 0 else R.val; rw [if_neg (by decide)])

/-- A column repeated along every row. -/
theorem rep_col (v : S1024x1.Idx → α) (R : Fin 1024) (c : Fin 32768) :
    broadcastInDim S1024x32768 ![0, 1] bcast_S1024x1_S1024x32768_0_1 v (ix2 R c) = v (ix2 R (0 : Fin 1)) :=
  broadcastInDim_apply _ bcast_S1024x1_S1024x32768_0_1 v (ix2 R c) (ix2 R (0 : Fin 1)) (fun a => match a with
    | ⟨0, _⟩ => by show R.val = if (1024 : Nat) = 1 then 0 else R.val; rw [if_neg (by decide)]
    | ⟨1, _⟩ => by show 0 = if (1 : Nat) = 1 then 0 else c.val; rw [if_pos rfl])

/-- A vector over the columns laid down as a row. -/
theorem row_of_cols (v : S32768.Idx → α) (u : Fin 1) (c : Fin 32768) :
    broadcastInDim S1x32768 ![1] bcast_S32768_S1x32768_1 v (ix2 u c) = v (ix1 c) :=
  broadcastInDim_apply _ bcast_S32768_S1x32768_1 v (ix2 u c) (ix1 c) (fun a => match a with
    | ⟨0, _⟩ => by show c.val = if (32768 : Nat) = 1 then 0 else c.val; rw [if_neg (by decide)])

/-- A row repeated down every column. -/
theorem rep_row (v : S1x32768.Idx → α) (R : Fin 1024) (c : Fin 32768) :
    broadcastInDim S1024x32768 ![0, 1] bcast_S1x32768_S1024x32768_0_1 v (ix2 R c) = v (ix2 (0 : Fin 1) c) :=
  broadcastInDim_apply _ bcast_S1x32768_S1024x32768_0_1 v (ix2 R c) (ix2 (0 : Fin 1) c) (fun a => match a with
    | ⟨0, _⟩ => by show 0 = if (1 : Nat) = 1 then 0 else R.val; rw [if_pos rfl]
    | ⟨1, _⟩ => by show c.val = if (32768 : Nat) = 1 then 0 else c.val; rw [if_neg (by decide)])

/-- A vector over the rows repeated along every row: at (R, c) it is the vector at R. -/
theorem rows_full (v : S1024.Idx → α) (R : Fin 1024) (c : Fin 32768) :
    broadcastInDim S1024x32768 ![0, 1] bcast_S1024x1_S1024x32768_0_1
      (broadcastInDim S1024x1 ![0] bcast_S1024_S1024x1_0 v) (ix2 R c) = v (ix1 R) := by
  rw [rep_col, col_of_rows]

/-- A vector over the columns repeated down every column: at (R, c) it is the vector at c. -/
theorem cols_full (v : S32768.Idx → α) (R : Fin 1024) (c : Fin 32768) :
    broadcastInDim S1024x32768 ![0, 1] bcast_S1x32768_S1024x32768_0_1
      (broadcastInDim S1x32768 ![1] bcast_S32768_S1x32768_1 v) (ix2 R c) = v (ix1 c) := by
  rw [rep_row, row_of_cols]

/-! ## The host's sum along a row -/

/-- The host's sum along the columns, at row R: the initial value plus the sum of the row's entries. -/
theorem hostSum_row (x : FVec Ideal S1024x32768 .f32) (init : FVec Ideal S_ .f32) (R : Fin 1024) :
    Host.reduceAdd (F := Ideal) x init reducesTo_S1024x32768_S1024_d1 h_S_ (ix1 R)
      = init ix0 + ∑ c : Fin 32768, x (ix2 R c) := by
  simp only [Host.reduceAdd, Ideal.hostReduceAdd_def]
  rw [Ideal.hostReduceAdd_single reducesTo_S1024x32768_S1024_d1 (by decide)]
  refine congrArg₂ (· + ·) (congrArg init (funext fun d => d.elim0)) (Finset.sum_congr rfl fun k _ => ?_)
  exact congrArg x (funext fun a => Fin.ext (by match a with | ⟨0, _⟩ => rfl | ⟨1, _⟩ => rfl))

/-- The host's logarithm is taken entry by entry. -/
theorem hostLog_at {s : Shape} (v : FVec Ideal s .f32) (i : s.Idx) : Host.log (F := Ideal) v i = Ideal.log (v i) := rfl

/-! ## The stages -/

section Stages

variable (X : FVec Ideal S1024x32768 .f32) (T P : IVec S1024 32)

/-- The shift of every row: the larger of minus infinity and the row's maximum. -/
def shiftVec : FVec Ideal S1024 .f32 :=
  maximumf (F := Ideal) (broadcastInDim S1024 ![] bcast_S_S1024 (constant (F := Ideal) S_ .f32 0xFF800000#32)) (Host.reduce (FloatOps.maximumf (F := Ideal) (φ := .f32)) X (constant (F := Ideal) S_ .f32 0xFF800000#32) reducesTo_S1024x32768_S1024_d1 h_S_)

/-- The logits, each row shifted. -/
def shifted : FVec Ideal S1024x32768 .f32 :=
  subf (F := Ideal) X (broadcastInDim S1024x32768 ![0, 1] bcast_S1024x1_S1024x32768_0_1 (broadcastInDim S1024x1 ![0] bcast_S1024_S1024x1_0 (shiftVec X)))

/-- The sum of the exponentials of every shifted row. -/
def expSum : FVec Ideal S1024 .f32 :=
  Host.reduceAdd (F := Ideal) (Host.exp (F := Ideal) (shifted X)) (constant (F := Ideal) S_ .f32 0x00000000#32) reducesTo_S1024x32768_S1024_d1 h_S_

/-- The shifted logits minus the logarithm of their row's sum of exponentials. -/
def logSoftmax : FVec Ideal S1024x32768 .f32 :=
  subf (F := Ideal) (shifted X) (broadcastInDim S1024x32768 ![0, 1] bcast_S1024x1_S1024x32768_0_1 (Host.log (F := Ideal) (broadcastInDim S1024x1 ![0] bcast_S1024_S1024x1_0 (expSum X))))

/-- Which entries lie in their row's range. -/
def mask : IVec S1024x32768 1 :=
  andi (cmpi .sge (broadcastInDim S1024x32768 ![0, 1] bcast_S1x32768_S1024x32768_0_1 (broadcastInDim S1x32768 ![1] bcast_S32768_S1x32768_1 (iotaInDim S32768 32 0))) (broadcastInDim S1024x32768 ![0, 1] bcast_S1024x1_S1024x32768_0_1 (broadcastInDim S1024x1 ![0] bcast_S1024_S1024x1_0 T))) (cmpi .sle (broadcastInDim S1024x32768 ![0, 1] bcast_S1x32768_S1024x32768_0_1 (broadcastInDim S1x32768 ![1] bcast_S32768_S1x32768_1 (iotaInDim S32768 32 0))) (broadcastInDim S1024x32768 ![0, 1] bcast_S1024x1_S1024x32768_0_1 (broadcastInDim S1024x1 ![0] bcast_S1024_S1024x1_0 (addi T P))))

/-- The kept values: the log-softmax inside the range, zero outside. -/
def kept : FVec Ideal S1024x32768 .f32 :=
  select (mask T P) (logSoftmax X) (broadcastInDim S1024x32768 ![] bcast_S_S1024x32768 (id (constant (F := Ideal) S_ .f32 0x00000000#32)))

/-- The sum of every row's kept values. -/
def keptSum : FVec Ideal S1024 .f32 :=
  Host.reduceAdd (F := Ideal) (kept X T P) (constant (F := Ideal) S_ .f32 0x00000000#32) reducesTo_S1024x32768_S1024_d1 h_S_

/-- Every row's value: minus the sum of its kept values, over p + 1. -/
def rowValue : FVec Ideal S1024 .f32 :=
  Host.divf (F := Ideal) (Host.negf (F := Ideal) (keptSum X T P)) (sitofp (F := Ideal) .f32 (addi P (broadcastInDim S1024 ![] bcast_S_S1024 (constantI S_ 32 1#32))))

/-- The mean of the row values. -/
def mean : FVec Ideal S_ .f32 :=
  Host.divf (F := Ideal) (Host.reduceAdd (F := Ideal) (rowValue X T P) (constant (F := Ideal) S_ .f32 0x00000000#32) reducesTo_S1024_S_d0 h_S_) (constant (F := Ideal) S_ .f32 0x44800000#32)

/-! ## Each stage at an index -/

/-- The shift of a row x: max(-inf, max_c x c). -/
def rowShift (x : Fin 32768 → EReal) : EReal :=
  max Cert.Loss.negInf ((Finset.univ : Finset (Fin 32768)).fold max Cert.Loss.negInf x)

/-- The logarithm of the sum of the exponentials of a shifted row. -/
def rowLog (x : Fin 32768 → EReal) : EReal :=
  Ideal.log (∑ c : Fin 32768, Ideal.exp (x c - rowShift x))

/-- The row formula of the specification, with the shift and the logarithm named. -/
theorem refRow_eq (x : Fin 32768 → EReal) (t p : BitVec 32) :
    Cert.Loss.refRow x t p
      = Ideal.div (-(∑ c : Fin 32768, Scalar.select (Cert.Loss.inRange t p (Cert.Loss.colWord c))
          ((x c - rowShift x) - rowLog x) (0 : EReal))) (Cert.Loss.count p) := rfl

theorem shiftVec_at (R : Fin 1024) : shiftVec X (ix1 R) = rowShift (fun c => X (ix2 R c)) := by
  rw [shiftVec, maximumf_apply, rep_scalar_rows,
    Cert.AxisReads.hostMax_cols (a := 1024) (b := 32768) X _ reducesTo_S1024x32768_S1024_d1 (by decide) h_S_ R]
  rfl

theorem shifted_at (R : Fin 1024) (c : Fin 32768) :
    shifted X (ix2 R c) = X (ix2 R c) - rowShift (fun c => X (ix2 R c)) := by
  rw [shifted, subf_apply, rows_full, shiftVec_at]

theorem expSum_at (R : Fin 1024) :
    expSum X (ix1 R) = ∑ c : Fin 32768, Ideal.exp (X (ix2 R c) - rowShift (fun c => X (ix2 R c))) := by
  rw [expSum, hostSum_row]
  show Ideal.ofBits .f32 0x00000000#32 + ∑ c : Fin 32768, Ideal.exp (shifted X (ix2 R c)) = _
  rw [Ideal.ofBits_zero_f32, zero_add]
  exact Finset.sum_congr rfl fun c _ => by rw [shifted_at]

theorem logSoftmax_at (R : Fin 1024) (c : Fin 32768) :
    logSoftmax X (ix2 R c)
      = (X (ix2 R c) - rowShift (fun c => X (ix2 R c))) - rowLog (fun c => X (ix2 R c)) := by
  rw [logSoftmax, subf_apply, shifted_at, rep_col, hostLog_at, col_of_rows, expSum_at]
  rfl

theorem mask_at (R : Fin 1024) (c : Fin 32768) :
    mask T P (ix2 R c) = Cert.Loss.inRange (T (ix1 R)) (P (ix1 R)) (Cert.Loss.colWord c) := by
  have e : mask T P (ix2 R c)
      = IntOp.andi
          (IntOp.cmpi .sge
            (broadcastInDim S1024x32768 ![0, 1] bcast_S1x32768_S1024x32768_0_1 (broadcastInDim S1x32768 ![1] bcast_S32768_S1x32768_1 (iotaInDim S32768 32 0)) (ix2 R c))
            (broadcastInDim S1024x32768 ![0, 1] bcast_S1024x1_S1024x32768_0_1 (broadcastInDim S1024x1 ![0] bcast_S1024_S1024x1_0 T) (ix2 R c)))
          (IntOp.cmpi .sle
            (broadcastInDim S1024x32768 ![0, 1] bcast_S1x32768_S1024x32768_0_1 (broadcastInDim S1x32768 ![1] bcast_S32768_S1x32768_1 (iotaInDim S32768 32 0)) (ix2 R c))
            (broadcastInDim S1024x32768 ![0, 1] bcast_S1024x1_S1024x32768_0_1 (broadcastInDim S1024x1 ![0] bcast_S1024_S1024x1_0 (addi T P)) (ix2 R c))) := rfl
  rw [e, cols_full, rows_full, rows_full]
  rfl

theorem kept_at (R : Fin 1024) (c : Fin 32768) :
    kept X T P (ix2 R c)
      = Scalar.select (Cert.Loss.inRange (T (ix1 R)) (P (ix1 R)) (Cert.Loss.colWord c))
          ((X (ix2 R c) - rowShift (fun c => X (ix2 R c))) - rowLog (fun c => X (ix2 R c))) (0 : EReal) := by
  rw [kept, select_apply, mask_at, logSoftmax_at, rep_scalar_full]
  show Scalar.select _ _ (Ideal.ofBits .f32 0x00000000#32) = _
  rw [Ideal.ofBits_zero_f32]

theorem keptSum_at (R : Fin 1024) :
    keptSum X T P (ix1 R)
      = ∑ c : Fin 32768, Scalar.select (Cert.Loss.inRange (T (ix1 R)) (P (ix1 R)) (Cert.Loss.colWord c))
          ((X (ix2 R c) - rowShift (fun c => X (ix2 R c))) - rowLog (fun c => X (ix2 R c))) (0 : EReal) := by
  rw [keptSum, hostSum_row]
  show Ideal.ofBits .f32 0x00000000#32 + _ = _
  rw [Ideal.ofBits_zero_f32, zero_add]
  exact Finset.sum_congr rfl fun c _ => kept_at X T P R c

theorem rowValue_at (R : Fin 1024) :
    rowValue X T P (ix1 R) = Cert.Loss.refRow (fun c => X (ix2 R c)) (T (ix1 R)) (P (ix1 R)) := by
  rw [refRow_eq, ← keptSum_at X T P R]
  show Ideal.div (-(keptSum X T P (ix1 R)))
      (((IntOp.addi (P (ix1 R)) (broadcastInDim S1024 ![] bcast_S_S1024 (constantI S_ 32 1#32) (ix1 R))).toInt : ℝ) : EReal) = _
  rw [rep_scalar_rows]
  rfl

/-- The rows' one-coordinate indices are the row numbers. -/
def rowsEquiv : S1024.Idx ≃ Fin 1024 where
  toFun j := j 0
  invFun := ix1
  left_inv j := (eq_ix1 j).symm
  right_inv _ := rfl

/-- The reference's result is the mean of the row formula over the rows. -/
theorem mean_eq :
    mean X T P = fun _ => Cert.Loss.total (fun R => Cert.Loss.refRow (fun c => X (ix2 R c)) (T (ix1 R)) (P (ix1 R))) := by
  funext i
  have hs : ∑ j : S1024.Idx, rowValue X T P j
      = ∑ R : Fin 1024, Cert.Loss.refRow (fun c => X (ix2 R c)) (T (ix1 R)) (P (ix1 R)) :=
    Fintype.sum_equiv rowsEquiv _ _ fun j =>
      (congrArg (rowValue X T P) (eq_ix1 j)).trans (rowValue_at X T P (j 0))
  have ht : Host.reduceAdd (F := Ideal) (rowValue X T P) (constant (F := Ideal) S_ .f32 0x00000000#32) reducesTo_S1024_S_d0 h_S_ i
      = ∑ R : Fin 1024, Cert.Loss.refRow (fun c => X (ix2 R c)) (T (ix1 R)) (P (ix1 R)) := by
    simp only [Host.reduceAdd, Ideal.hostReduceAdd_def]
    rw [Ideal.hostReduceAdd_total reducesTo_S1024_S_d0 (fun b => b.elim0), hs]
    show Ideal.ofBits .f32 0x00000000#32 + _ = _
    rw [Ideal.ofBits_zero_f32, zero_add]
  show Ideal.div (Host.reduceAdd (F := Ideal) (rowValue X T P) (constant (F := Ideal) S_ .f32 0x00000000#32) reducesTo_S1024_S_d0 h_S_ i)
      (Ideal.ofBits .f32 0x44800000#32) = _
  rw [ht]
  rfl

end Stages

/-- The term the reference's run ends at, at the arrays X, T, P, is the mean of the row formula over the rows. -/
theorem result_eq (X : FVec Ideal S1024x32768 .f32) (T P : IVec S1024 32) :
    Host.divf (F := Ideal) (Host.reduceAdd (F := Ideal) (Host.divf (F := Ideal) (Host.negf (F := Ideal) (Host.reduceAdd (F := Ideal) (select (andi (cmpi .sge (broadcastInDim S1024x32768 ![0, 1] bcast_S1x32768_S1024x32768_0_1 (broadcastInDim S1x32768 ![1] bcast_S32768_S1x32768_1 (iotaInDim S32768 32 0))) (broadcastInDim S1024x32768 ![0, 1] bcast_S1024x1_S1024x32768_0_1 (broadcastInDim S1024x1 ![0] bcast_S1024_S1024x1_0 T))) (cmpi .sle (broadcastInDim S1024x32768 ![0, 1] bcast_S1x32768_S1024x32768_0_1 (broadcastInDim S1x32768 ![1] bcast_S32768_S1x32768_1 (iotaInDim S32768 32 0))) (broadcastInDim S1024x32768 ![0, 1] bcast_S1024x1_S1024x32768_0_1 (broadcastInDim S1024x1 ![0] bcast_S1024_S1024x1_0 (addi T P))))) (subf (F := Ideal) (subf (F := Ideal) X (broadcastInDim S1024x32768 ![0, 1] bcast_S1024x1_S1024x32768_0_1 (broadcastInDim S1024x1 ![0] bcast_S1024_S1024x1_0 (maximumf (F := Ideal) (broadcastInDim S1024 ![] bcast_S_S1024 (constant (F := Ideal) S_ .f32 0xFF800000#32)) (Host.reduce (FloatOps.maximumf (F := Ideal) (φ := .f32)) X (constant (F := Ideal) S_ .f32 0xFF800000#32) reducesTo_S1024x32768_S1024_d1 h_S_))))) (broadcastInDim S1024x32768 ![0, 1] bcast_S1024x1_S1024x32768_0_1 (Host.log (F := Ideal) (broadcastInDim S1024x1 ![0] bcast_S1024_S1024x1_0 (Host.reduceAdd (F := Ideal) (Host.exp (F := Ideal) (subf (F := Ideal) X (broadcastInDim S1024x32768 ![0, 1] bcast_S1024x1_S1024x32768_0_1 (broadcastInDim S1024x1 ![0] bcast_S1024_S1024x1_0 (maximumf (F := Ideal) (broadcastInDim S1024 ![] bcast_S_S1024 (constant (F := Ideal) S_ .f32 0xFF800000#32)) (Host.reduce (FloatOps.maximumf (F := Ideal) (φ := .f32)) X (constant (F := Ideal) S_ .f32 0xFF800000#32) reducesTo_S1024x32768_S1024_d1 h_S_)))))) (constant (F := Ideal) S_ .f32 0x00000000#32) reducesTo_S1024x32768_S1024_d1 h_S_))))) (broadcastInDim S1024x32768 ![] bcast_S_S1024x32768 (id (constant (F := Ideal) S_ .f32 0x00000000#32)))) (constant (F := Ideal) S_ .f32 0x00000000#32) reducesTo_S1024x32768_S1024_d1 h_S_)) (sitofp (F := Ideal) .f32 (addi P (broadcastInDim S1024 ![] bcast_S_S1024 (constantI S_ 32 1#32))))) (constant (F := Ideal) S_ .f32 0x00000000#32) reducesTo_S1024_S_d0 h_S_) (constant (F := Ideal) S_ .f32 0x44800000#32)
      = fun _ => Cert.Loss.total (fun R => Cert.Loss.refRow (fun c => X (ix2 R c)) (T (ix1 R)) (P (ix1 R))) :=
  mean_eq X T P

end Cert.ReferenceIdeal.RefValue

end
-- ==== Proof.KernelPieces.lean ====
/-
  What each of the body's three control cases leaves in the three carried accumulators and in the output block,
  as the body's own arithmetic terms of what it loaded.

  At the first column block of a row block the accumulators are first set to minus infinity, zero and zero and
  then updated; at every later block they are updated from what the block before left; at the last block the
  output is computed from the updated accumulators. An update stores, in this order of dependence: the new
  running maximum (of the old one and the block's row maxima), the rescaled sum of exponentials, and the
  masked sum of the block's logits.
-/
import proofs.«107537_j26929444946218_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]
variable (c : Dev nD) (i : grid0.Coords)
  (arg2 : Memref sig .tc .vmem S512x2048 .f32) (harg2 : arg2.IsWhole)
  (arg3 : Memref sig .tc .vmem S512x1 .i32) (harg3 : arg3.IsWhole)
  (arg4 : Memref sig .tc .vmem S512x1 .i32) (harg4 : arg4.IsWhole)
  (arg5 : Memref sig .tc .vmem S512x1 .f32) (harg5 : arg5.IsWhole)
  (arg6 : Memref sig .tc .vmem S512x1 .f32) (harg6 : arg6.IsWhole)
  (arg7 : Memref sig .tc .vmem S512x1 .f32) (harg7 : arg7.IsWhole)
  (arg8 : Memref sig .tc .vmem S512x1 .f32) (harg8 : arg8.IsWhole)
  (x0 : Vec F S512x2048 .f32) (x1 x2 : Vec F S512x1 .i32) (xs0 xs1 xs2 : Vec F S512x1 .f32)

theorem hz : (![0, 0] : Fin 2 → Nat) = fun _ => 0 := funext fun a => by fin_cases a <;> rfl

/-! ## The first column block: the accumulators start at minus infinity, zero, zero -/
section caseA
variable (hc0 : cond0_0 i) (hc1 : ¬cond0_1 i)

theorem max_first : sout0_A_0 c i arg2 harg2 arg3 harg3 arg4 harg4 arg5 harg5 arg6 harg6 arg7 harg7 arg8 harg8 hc0 hc1 x0 x1 x2 = k0_pay8 x0 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]

theorem sum_first : sout0_A_1 c i arg2 harg2 arg3 harg3 arg4 harg4 arg5 harg5 arg6 harg6 arg7 harg7 arg8 harg8 hc0 hc1 x0 x1 x2 = k0_pay7 x0 k0_pay3 k0_pay3 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]

theorem masked_first : sout0_A_2 c i arg2 harg2 arg3 harg3 arg4 harg4 arg5 harg5 arg6 harg6 arg7 harg7 arg8 harg8 hc0 hc1 x0 x1 x2
    = k0_pay1 x0 (k0_pay9 x1) (k0_pay10 x1 x2) (k0_pay11 i) k0_pay5 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]
end caseA

/-! ## A middle column block: the accumulators continue from what the block before left -/
section caseB
variable (hc0 : ¬cond0_0 i) (hc1 : ¬cond0_1 i)

theorem max_mid : sout0_B_0 c i arg2 harg2 arg3 harg3 arg4 harg4 arg5 harg5 arg6 harg6 arg7 harg7 arg8 harg8 hc0 hc1 x0 x1 x2 xs0 xs1 xs2 = k0_pay8 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]

theorem sum_mid : sout0_B_1 c i arg2 harg2 arg3 harg3 arg4 harg4 arg5 harg5 arg6 harg6 arg7 harg7 arg8 harg8 hc0 hc1 x0 x1 x2 xs0 xs1 xs2 = k0_pay7 x0 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]

theorem masked_mid : sout0_B_2 c i arg2 harg2 arg3 harg3 arg4 harg4 arg5 harg5 arg6 harg6 arg7 harg7 arg8 harg8 hc0 hc1 x0 x1 x2 xs0 xs1 xs2
    = k0_pay1 x0 (k0_pay9 x1) (k0_pay10 x1 x2) (k0_pay11 i) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]
end caseB

/-! ## The last column block: the same update, and the output from the updated accumulators -/
section caseC
variable (hc0 : ¬cond0_0 i) (hc1 : cond0_1 i)

theorem max_last : sout0_C_0 c i arg2 harg2 arg3 harg3 arg4 harg4 arg5 harg5 arg6 harg6 arg7 harg7 arg8 harg8 hc0 hc1 x0 x1 x2 xs0 xs1 xs2 = k0_pay8 x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]

theorem sum_last : sout0_C_1 c i arg2 harg2 arg3 harg3 arg4 harg4 arg5 harg5 arg6 harg6 arg7 harg7 arg8 harg8 hc0 hc1 x0 x1 x2 xs0 xs1 xs2 = k0_pay7 x0 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]

theorem masked_last : sout0_C_2 c i arg2 harg2 arg3 harg3 arg4 harg4 arg5 harg5 arg6 harg6 arg7 harg7 arg8 harg8 hc0 hc1 x0 x1 x2 xs0 xs1 xs2
    = k0_pay1 x0 (k0_pay9 x1) (k0_pay10 x1 x2) (k0_pay11 i) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]

theorem out_last : out0_C_3 c i arg2 harg2 arg3 harg3 arg4 harg4 arg5 harg5 arg6 harg6 arg7 harg7 arg8 harg8 hc0 hc1 x0 x1 x2 xs0 xs1 xs2
    = k0_pay2 (k0_pay8 x0 xs0) (k0_pay7 x0 xs0 xs0 xs1) x2
        (k0_pay1 x0 (k0_pay9 x1) (k0_pay10 x1 x2) (k0_pay11 i) xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  try sl_unfold_words
  simp only [View.canon_unit_zero (S := S512x1) hz, View.canon_cons_unit_zero (S := S512x1) hz, View.readCov_unit_zero (S := S512x1) _ hz,
    View.readAt_eq_ld, harg2.read_unread, harg3.read_unread, harg4.read_unread, harg6.read_unread, harg7.read_unread,
    harg8.read_unread, View.ld_unit_zero (S := S512x2048) hz, View.ld_unit_zero (S := S512x1) hz]
end caseC

end Cert.KernelIdeal.Pieces
end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.KernelPayloads.lean ====
/-
  The body's arithmetic read at one row of a block, at the exact values.

  Row r of a block of 512 rows and 2048 columns: the new running maximum is the larger of the old one and the
  row's maximum; the new sum is the old sum times exp (old maximum - new maximum) plus the sum over the row of
  exp (logit - new maximum); the new masked sum is the old one plus the sum of the row's logits whose column
  word lies between the row's start word and its end word (start + length, a wrapping sum); and after the last
  block the output is (maximum + log sum) - masked sum / (length + 1).
-/
import proofs.«107537_j26929444946218_1_alg».proof.Proof.Gen.KernelIdeal.Skeleton
import proofs.«107537_j26929444946218_1_alg».proof.Proof.Spec
import proofs.«107537_j26929444946218_1_alg».proof.Proof.LibAxisReads
import proofs.«107537_j26929444946218_1_alg».proof.Proof.LibColumnForms
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx Cert.Loss

/-! ## Pointwise operations at an index -/

section Pointwise
variable {s : Shape} {w : Nat}
theorem exp_at (x : FVec Ideal s .f32) (i : s.Idx) : exp x i = Ideal.exp (x i) := rfl
theorem log_at (x : FVec Ideal s .f32) (i : s.Idx) : log x i = Ideal.log (x i) := rfl
theorem andi_at (x y : IVec s w) (i : s.Idx) : andi x y i = IntOp.andi (x i) (y i) := rfl
theorem addi_at (x y : IVec s w) (i : s.Idx) : addi x y i = IntOp.addi (x i) (y i) := rfl
theorem cmpi_at (p : CmpIPredicate) (x y : IVec s w) (i : s.Idx) : cmpi p x y i = IntOp.cmpi p (x i) (y i) := rfl
end Pointwise

/-- The row's column of a [512, 1] block. -/
abbrev at0 (r : Fin 512) : S512x1.Idx := ix2 r (0 : Fin 1)

/-- Every index of a [512, 1] block is a row's column. -/
theorem eq_at0 (y : S512x1.Idx) : y = at0 (y 0) := by
  have h := eq_ix2 y
  have h1 : y 1 = (0 : Fin 1) := Fin.ext (by have := idx2_lt1 y; show (y 1).val = 0; omega)
  rw [h1] at h
  exact h

/-- The new running maximum at row r. -/
theorem max_apply (v3 : Vec Ideal S512x2048 .f32) (v6 : Vec Ideal S512x1 .f32) (r : Fin 512) :
    k0_pay6 (F := Ideal) v3 v6 (at0 r)
      = max (v6 (at0 r)) ((Finset.univ : Finset (Fin 2048)).fold max negInf fun k => v3 (ix2 r k)) := by
  unfold k0_pay6
  try dsimp only
  rw [maximumf_apply, Cert.ColumnForms.shapeCast_a_a1_apply, Cert.AxisReads.max_cols]

/-- The stored maximum is the new running maximum. -/
theorem pay8_eq (v3 : Vec Ideal S512x2048 .f32) (v6 : Vec Ideal S512x1 .f32) :
    k0_pay8 (F := Ideal) v3 v6 = k0_pay6 v3 v6 := by
  unfold k0_pay8
  try dsimp only
  rw [shapeCast_self]

/-- The new sum of exponentials at row r. -/
theorem sum_apply (v3 : Vec Ideal S512x2048 .f32) (v6 v8 v16 : Vec Ideal S512x1 .f32) (r : Fin 512) :
    k0_pay7 (F := Ideal) v3 v6 v8 v16 (at0 r)
      = v16 (at0 r) * Ideal.exp (v8 (at0 r) - k0_pay6 v3 v6 (at0 r))
        + ∑ k : Fin 2048, Ideal.exp (v3 (ix2 r k) - k0_pay6 v3 v6 (at0 r)) := by
  unfold k0_pay7
  try dsimp only
  rw [shapeCast_self, addf_apply, mulf_apply, exp_at, subf_apply, Cert.ColumnForms.shapeCast_a_a1_apply,
    Cert.AxisReads.sum_cols]
  refine congrArg (fun z => v16 (at0 r) * Ideal.exp (v8 (at0 r) - k0_pay6 v3 v6 (at0 r)) + z) ?_
  refine Finset.sum_congr rfl fun k _ => ?_
  rw [exp_at, subf_apply, Cert.ColumnForms.broadcastTo_a1_ab_apply]

/-- A lane's number inside the block, as the word the body computes. -/
theorem lane_apply (h : S512x2048.Iotas .tc 32 [1]) (r : Fin 512) (k : Fin 2048) :
    iota .tc S512x2048 32 [1] h (ix2 r k) = BitVec.ofNat 32 k.val := by
  show BitVec.ofNat 32 (0 * 2048 + k.val) = _
  rw [Nat.zero_mul, Nat.zero_add]

/-- The block's column word at (r, k): the position in the block plus the block's offset. -/
theorem word_apply (i : grid0.Coords) (r : Fin 512) (k : Fin 2048) :
    k0_pay11 i (ix2 r k) = blockWord (i 1).val k := by
  unfold k0_pay11
  try dsimp only
  rw [addi_at, lane_apply, broadcast_apply]
  rfl

/-- The start words and the end words as stored. -/
theorem pay9_eq (x1 : Vec Ideal S512x1 .i32) : k0_pay9 (F := Ideal) x1 = x1 := by
  unfold k0_pay9
  try dsimp only
  rw [shapeCast_self]
theorem pay10_eq (x1 x2 : Vec Ideal S512x1 .i32) : k0_pay10 (F := Ideal) x1 x2 = addi x1 x2 := by
  unfold k0_pay10
  try dsimp only
  rw [pay9_eq, shapeCast_self]

/-- The new masked sum at row r. -/
theorem masked_apply (i : grid0.Coords) (v3 : Vec Ideal S512x2048 .f32) (x1 x2 : Vec Ideal S512x1 .i32)
    (v39 : Vec Ideal S512x1 .f32) (r : Fin 512) :
    k0_pay1 (F := Ideal) v3 (k0_pay9 (F := Ideal) x1) (k0_pay10 (F := Ideal) x1 x2) (k0_pay11 i) v39 (at0 r)
      = v39 (at0 r) + ∑ k : Fin 2048,
          Scalar.select (inRange (x1 (at0 r)) (x2 (at0 r)) (blockWord (i 1).val k)) (v3 (ix2 r k)) (0 : EReal) := by
  rw [pay9_eq, pay10_eq]
  unfold k0_pay1
  try dsimp only
  rw [shapeCast_self, addf_apply, Cert.ColumnForms.shapeCast_a_a1_apply, Cert.AxisReads.sum_cols]
  refine congrArg (fun z => v39 (at0 r) + z) ?_
  refine Finset.sum_congr rfl fun k _ => ?_
  rw [select_apply, broadcast_apply, andi_at, cmpi_at, cmpi_at, Cert.ColumnForms.broadcastTo_a1_ab_apply,
    Cert.ColumnForms.broadcastTo_a1_ab_apply, addi_at, word_apply]
  show Scalar.select _ _ (Ideal.ofBits .f32 0x00000000#32) = _
  rw [Ideal.ofBits_zero_f32]
  rfl

/-- The output at row r. -/
theorem out_apply (v51 v52 : Vec Ideal S512x1 .f32) (v55 : Vec Ideal S512x1 .i32) (v60 : Vec Ideal S512x1 .f32)
    (r : Fin 512) :
    k0_pay2 (F := Ideal) v51 v52 v55 v60 (at0 r)
      = (v51 (at0 r) + Ideal.log (v52 (at0 r))) - Ideal.div (v60 (at0 r)) (count (v55 (at0 r))) := by
  unfold k0_pay2
  try dsimp only
  rw [shapeCast_self, subf_apply, addf_apply, log_at, divf_apply, sitofp_apply, addi_at, broadcast_apply]
  rfl

/-- The three starting values: minus infinity, zero, zero. -/
theorem init_max (y : S512x1.Idx) : k0_pay3 (F := Ideal) y = negInf := by
  unfold k0_pay3
  try dsimp only
  rw [shapeCast_self, broadcast_apply]
  rfl
theorem init_sum (y : S512x1.Idx) : k0_pay4 (F := Ideal) y = 0 := by
  unfold k0_pay4
  try dsimp only
  rw [shapeCast_self, broadcast_apply]
  exact Ideal.ofBits_zero_f32
theorem init_masked (y : S512x1.Idx) : k0_pay5 (F := Ideal) y = 0 := by
  unfold k0_pay5
  try dsimp only
  rw [shapeCast_self, broadcast_apply]
  exact Ideal.ofBits_zero_f32

/-! ## One block folded into the running values -/

/-- The stored maximum is the running maximum of the block folded in. -/
theorem step_m (a : Acc) (v3 : Vec Ideal S512x2048 .f32) (v6 : Vec Ideal S512x1 .f32) (r : Fin 512)
    (y : Fin 2048 → EReal) (msk : Fin 2048 → BitVec 1)
    (h6 : v6 (at0 r) = a.m) (hy : ∀ k, v3 (ix2 r k) = y k) :
    k0_pay8 (F := Ideal) v3 v6 (at0 r) = (a.step y msk).m := by
  rw [pay8_eq, max_apply, h6, funext hy]
  rfl

/-- The stored sum is the rescaled sum of the block folded in. -/
theorem step_s (a : Acc) (v3 : Vec Ideal S512x2048 .f32) (v6 v8 v16 : Vec Ideal S512x1 .f32) (r : Fin 512)
    (y : Fin 2048 → EReal) (msk : Fin 2048 → BitVec 1)
    (h6 : v6 (at0 r) = a.m) (h8 : v8 (at0 r) = a.m) (h16 : v16 (at0 r) = a.s) (hy : ∀ k, v3 (ix2 r k) = y k) :
    k0_pay7 (F := Ideal) v3 v6 v8 v16 (at0 r) = (a.step y msk).s := by
  rw [sum_apply, max_apply, h6, h8, h16, funext hy]
  simp only [hy]
  rfl

/-- The stored masked sum is the masked sum of the block folded in. -/
theorem step_sx (a : Acc) (i : grid0.Coords) (v3 : Vec Ideal S512x2048 .f32) (x1 x2 : Vec Ideal S512x1 .i32)
    (v39 : Vec Ideal S512x1 .f32) (r : Fin 512) (y : Fin 2048 → EReal) (t p : BitVec 32)
    (h39 : v39 (at0 r) = a.sx) (hy : ∀ k, v3 (ix2 r k) = y k) (ht : x1 (at0 r) = t) (hp : x2 (at0 r) = p) :
    k0_pay1 (F := Ideal) v3 (k0_pay9 (F := Ideal) x1) (k0_pay10 (F := Ideal) x1 x2) (k0_pay11 i) v39 (at0 r)
      = (a.step y fun l => inRange t p (blockWord (i 1).val l)).sx := by
  rw [masked_apply, h39, ht, hp]
  simp only [hy]
  rfl

end Cert.KernelIdeal.Payloads

end
-- ==== Proof.KernelWalk.lean ====
/-
  The walk over the grid. The grid has two row blocks of 512 rows, each walked in 16 column blocks of 2048
  columns; point t is column block t mod 16 of row block t div 16. The three accumulators after point t hold,
  at row r, the running values of the global row (t div 16) * 512 + r after its blocks 0 … t mod 16: by
  induction on the point, the first block of a row block starting from minus infinity, zero, zero and every
  later block continuing from the point before. At the last block of a row block the output block holds the
  row losses of its rows.
-/
import proofs.«107537_j26929444946218_1_alg».proof.Proof.Gen.KernelIdeal.Frame
import proofs.«107537_j26929444946218_1_alg».proof.Proof.KernelPieces
import proofs.«107537_j26929444946218_1_alg».proof.Proof.KernelPayloads
import proofs.«107537_j26929444946218_1_alg».proof.Proof.Spec
import Idealize.ShloMosaic.Lib.Pipeline.Value
import Idealize.ShloMosaic.Lib.StableHlo.Run
import Idealize.ShloMosaic.Lib.Tactic

noncomputable section

namespace Cert.KernelIdeal.Walk

open Cert.KernelIdeal Cert.KernelIdeal.Gen Idealize.ShloMosaic Idealize.ShloMosaic.TcCoe Idealize.SL.Sem
open Idealize.ShloMosaic.ValueIdx Cert.Loss Cert.KernelIdeal.Payloads
open Idealize.ShloMosaic.Pipeline (Dat)

variable (m : (ℓ : Loc nD τ sig) → Buf (Elt Ideal) ℓ)

/-! ## The rows of the three argument arrays -/

/-- Row R of the logits. -/
def xrow (c : Dev nD) (R : Fin 1024) : Fin 32768 → EReal :=
  fun k => (m ((c : Thread nD τ).loc main_arg0) : S1024x32768.Idx → EReal) (ix2 R k)
/-- Row R's start word. -/
def trow (c : Dev nD) (R : Fin 1024) : BitVec 32 := (m ((c : Thread nD τ).loc main_arg1) : S1024.Idx → BitVec 32) (ix1 R)
/-- Row R's length word. -/
def prow (c : Dev nD) (R : Fin 1024) : BitVec 32 := (m ((c : Thread nD τ).loc main_arg2) : S1024.Idx → BitVec 32) (ix1 R)

/-- The global row of row r of the block at point n. -/
def rowOf (n : ℕ) (r : Fin 512) : Fin 1024 := ⟨(n / 16) % 2 * 512 + r.val, by have := r.isLt; omega⟩

/-! ## The grid: which block each window stages at a point -/

theorem coord1 : ∀ t : Fin cfg0.N, ((grid0.coords t) 1).val = t.val % 16 :=
  (by decide +kernel : ∀ t : Fin grid0.N, ((grid0.coords t) 1).val = t.val % 16)
theorem idx_logits : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem idx_start : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)
theorem idx_len : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

theorem lt32 (t : Fin cfg0.N) : t.val < 32 := lt_of_lt_of_eq t.isLt (show cfg0.N = 32 from N_0)

/-! ## The blocks read off the argument arrays -/

/-- Entry (r, k) of the logits block at point t is column (t mod 16) * 2048 + k of the global row. -/
theorem blk_logits (c : Dev nD) (t : Fin cfg0.N) (r : Fin 512) (k : Fin 2048) :
    (iblk m c 0 t : S512x2048.Idx → EReal) (ix2 r k) = blockOf (xrow m c (rowOf t.val r)) (t.val % 16) k := by
  unfold iblk
  rw [View.read_apply]
  show V m c main_arg0 _ = _
  rw [V_main_arg0]
  unfold blockOf xrow
  congr 1
  funext a
  apply Fin.ext
  have hN := lt32 t
  match a with
  | ⟨0, _⟩ =>
    show win0_0.index t 0 * 512 + 1 * r.val = (t.val / 16) % 2 * 512 + r.val
    rw [(idx_logits t).1]; omega
  | ⟨1, _⟩ =>
    show win0_0.index t 1 * 2048 + 1 * k.val = (t.val % 16) % 16 * 2048 + k.val
    rw [(idx_logits t).2]; omega

/-- The start words as the region finds them: the argument vector reshaped to a column. -/
theorem V_start (c : Dev nD) : (V m c main_v0 : S1024x1.Idx → BitVec 32)
    = shapeCast S1024x1 (m ((c : Thread nD τ).loc main_arg1) : S1024.Idx → BitVec 32) shapeCasts_S1024_S1024x1 := by
  show StableHlo.after hostOps0 (fun b => m (c, b)) (Proc.devRef .tc main_v0) = _
  after_results
  rfl

/-- The length words likewise. -/
theorem V_len (c : Dev nD) : (V m c main_v1 : S1024x1.Idx → BitVec 32)
    = shapeCast S1024x1 (m ((c : Thread nD τ).loc main_arg2) : S1024.Idx → BitVec 32) shapeCasts_S1024_S1024x1 := by
  show StableHlo.after hostOps0 (fun b => m (c, b)) (Proc.devRef .tc main_v1) = _
  after_results
  rfl

/-- Row r of the start block at point t is the global row's start word. -/
theorem blk_start (c : Dev nD) (t : Fin cfg0.N) (r : Fin 512) :
    (iblk m c 1 t : S512x1.Idx → BitVec 32) (at0 r) = trow m c (rowOf t.val r) := by
  unfold iblk
  rw [View.read_apply]
  show (V m c main_v0 : S1024x1.Idx → BitVec 32) _ = _
  rw [V_start]
  have hi : ((cfg0.win 1).blk t).view.emb (at0 r) = ix2 (rowOf t.val r) (0 : Fin 1) := by
    funext a
    apply Fin.ext
    have hN := lt32 t
    match a with
    | ⟨0, _⟩ =>
      show win0_1.index t 0 * 512 + 1 * r.val = (t.val / 16) % 2 * 512 + r.val
      rw [(idx_start t).1]; omega
    | ⟨1, _⟩ =>
      show win0_1.index t 1 * 1 + 1 * 0 = 0
      rw [(idx_start t).2]
  rw [hi, Cert.ColumnForms.shapeCast_a_a1_apply]
  rfl

/-- Row r of the length block at point t is the global row's length word. -/
theorem blk_len (c : Dev nD) (t : Fin cfg0.N) (r : Fin 512) :
    (iblk m c 2 t : S512x1.Idx → BitVec 32) (at0 r) = prow m c (rowOf t.val r) := by
  unfold iblk
  rw [View.read_apply]
  show (V m c main_v1 : S1024x1.Idx → BitVec 32) _ = _
  rw [V_len]
  have hi : ((cfg0.win 2).blk t).view.emb (at0 r) = ix2 (rowOf t.val r) (0 : Fin 1) := by
    funext a
    apply Fin.ext
    have hN := lt32 t
    match a with
    | ⟨0, _⟩ =>
      show win0_2.index t 0 * 512 + 1 * r.val = (t.val / 16) % 2 * 512 + r.val
      rw [(idx_len t).1]; omega
    | ⟨1, _⟩ =>
      show win0_2.index t 1 * 1 + 1 * 0 = 0
      rw [(idx_len t).2]
  rw [hi, Cert.ColumnForms.shapeCast_a_a1_apply]
  rfl

/-! ## What a point leaves, case by case, as the body's terms -/

theorem prevLt (t : Fin cfg0.N) : t.val - 1 < cfg0.N := Nat.lt_of_le_of_lt (Nat.sub_le _ _) t.isLt

theorem first_m (c : Dev nD) (t : Fin cfg0.N) (h0 : t.val % 16 = 0) (h1 : ¬t.val % 16 = 15) :
    (outsAt0 m c t.val t.isLt).2.1 = k0_pay8 (iblk m c 0 t) (k0_pay3 (F := Ideal)) := by
  have hc0 : cond0_0 (grid0.coords t) := (hcond0_0 t).mpr h0
  have hc1 : ¬cond0_1 (grid0.coords t) := fun h => h1 ((hcond0_1 t).mp h)
  rw [outsAt0_A m c t h0 h1]
  exact Pieces.max_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) hc0 hc1

theorem first_s (c : Dev nD) (t : Fin cfg0.N) (h0 : t.val % 16 = 0) (h1 : ¬t.val % 16 = 15) :
    (outsAt0 m c t.val t.isLt).2.2.1 = k0_pay7 (iblk m c 0 t) (k0_pay3 (F := Ideal)) (k0_pay3 (F := Ideal)) (k0_pay4 (F := Ideal)) := by
  have hc0 : cond0_0 (grid0.coords t) := (hcond0_0 t).mpr h0
  have hc1 : ¬cond0_1 (grid0.coords t) := fun h => h1 ((hcond0_1 t).mp h)
  rw [outsAt0_A m c t h0 h1]
  exact Pieces.sum_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) hc0 hc1

theorem first_sx (c : Dev nD) (t : Fin cfg0.N) (h0 : t.val % 16 = 0) (h1 : ¬t.val % 16 = 15) :
    (outsAt0 m c t.val t.isLt).2.2.2
      = k0_pay1 (iblk m c 0 t) (k0_pay9 (iblk m c 1 t)) (k0_pay10 (iblk m c 1 t) (iblk m c 2 t)) (k0_pay11 (grid0.coords t)) (k0_pay5 (F := Ideal)) := by
  have hc0 : cond0_0 (grid0.coords t) := (hcond0_0 t).mpr h0
  have hc1 : ¬cond0_1 (grid0.coords t) := fun h => h1 ((hcond0_1 t).mp h)
  rw [outsAt0_A m c t h0 h1]
  exact Pieces.masked_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) hc0 hc1

set_option maxHeartbeats 2000000 in
theorem next_m (c : Dev nD) (t : Fin cfg0.N) (h0 : ¬t.val % 16 = 0) :
    (outsAt0 m c t.val t.isLt).2.1 = k0_pay8 (iblk m c 0 t) (outsAt0 m c (t.val - 1) (prevLt t)).2.1 := by
  by_cases h1 : t.val % 16 = 15
  · have hc0 : ¬cond0_0 (grid0.coords t) := fun h => h0 ((hcond0_0 t).mp h)
    have hc1 : cond0_1 (grid0.coords t) := (hcond0_1 t).mpr h1
    rw [outsAt0_C m c t h0 h1]
    exact Pieces.max_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (prevLt t)).2.1 (outsAt0 m c (t.val - 1) (prevLt t)).2.2.1 (outsAt0 m c (t.val - 1) (prevLt t)).2.2.2 hc0 hc1
  · have hc0 : ¬cond0_0 (grid0.coords t) := fun h => h0 ((hcond0_0 t).mp h)
    have hc1 : ¬cond0_1 (grid0.coords t) := fun h => h1 ((hcond0_1 t).mp h)
    rw [outsAt0_B m c t h0 h1]
    exact Pieces.max_mid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (prevLt t)).2.1 (outsAt0 m c (t.val - 1) (prevLt t)).2.2.1 (outsAt0 m c (t.val - 1) (prevLt t)).2.2.2 hc0 hc1

set_option maxHeartbeats 2000000 in
theorem next_s (c : Dev nD) (t : Fin cfg0.N) (h0 : ¬t.val % 16 = 0) :
    (outsAt0 m c t.val t.isLt).2.2.1
      = k0_pay7 (iblk m c 0 t) (outsAt0 m c (t.val - 1) (prevLt t)).2.1 (outsAt0 m c (t.val - 1) (prevLt t)).2.1
          (outsAt0 m c (t.val - 1) (prevLt t)).2.2.1 := by
  by_cases h1 : t.val % 16 = 15
  · have hc0 : ¬cond0_0 (grid0.coords t) := fun h => h0 ((hcond0_0 t).mp h)
    have hc1 : cond0_1 (grid0.coords t) := (hcond0_1 t).mpr h1
    rw [outsAt0_C m c t h0 h1]
    exact Pieces.sum_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (prevLt t)).2.1 (outsAt0 m c (t.val - 1) (prevLt t)).2.2.1 (outsAt0 m c (t.val - 1) (prevLt t)).2.2.2 hc0 hc1
  · have hc0 : ¬cond0_0 (grid0.coords t) := fun h => h0 ((hcond0_0 t).mp h)
    have hc1 : ¬cond0_1 (grid0.coords t) := fun h => h1 ((hcond0_1 t).mp h)
    rw [outsAt0_B m c t h0 h1]
    exact Pieces.sum_mid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (prevLt t)).2.1 (outsAt0 m c (t.val - 1) (prevLt t)).2.2.1 (outsAt0 m c (t.val - 1) (prevLt t)).2.2.2 hc0 hc1

set_option maxHeartbeats 2000000 in
theorem next_sx (c : Dev nD) (t : Fin cfg0.N) (h0 : ¬t.val % 16 = 0) :
    (outsAt0 m c t.val t.isLt).2.2.2
      = k0_pay1 (iblk m c 0 t) (k0_pay9 (iblk m c 1 t)) (k0_pay10 (iblk m c 1 t) (iblk m c 2 t)) (k0_pay11 (grid0.coords t))
          (outsAt0 m c (t.val - 1) (prevLt t)).2.2.2 := by
  by_cases h1 : t.val % 16 = 15
  · have hc0 : ¬cond0_0 (grid0.coords t) := fun h => h0 ((hcond0_0 t).mp h)
    have hc1 : cond0_1 (grid0.coords t) := (hcond0_1 t).mpr h1
    rw [outsAt0_C m c t h0 h1]
    exact Pieces.masked_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (prevLt t)).2.1 (outsAt0 m c (t.val - 1) (prevLt t)).2.2.1 (outsAt0 m c (t.val - 1) (prevLt t)).2.2.2 hc0 hc1
  · have hc0 : ¬cond0_0 (grid0.coords t) := fun h => h0 ((hcond0_0 t).mp h)
    have hc1 : ¬cond0_1 (grid0.coords t) := fun h => h1 ((hcond0_1 t).mp h)
    rw [outsAt0_B m c t h0 h1]
    exact Pieces.masked_mid (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (prevLt t)).2.1 (outsAt0 m c (t.val - 1) (prevLt t)).2.2.1 (outsAt0 m c (t.val - 1) (prevLt t)).2.2.2 hc0 hc1

theorem last_out (c : Dev nD) (t : Fin cfg0.N) (h0 : ¬t.val % 16 = 0) (h1 : t.val % 16 = 15) :
    (outsAt0 m c t.val t.isLt).1
      = k0_pay2 (k0_pay8 (iblk m c 0 t) (outsAt0 m c (t.val - 1) (prevLt t)).2.1)
          (k0_pay7 (iblk m c 0 t) (outsAt0 m c (t.val - 1) (prevLt t)).2.1 (outsAt0 m c (t.val - 1) (prevLt t)).2.1
            (outsAt0 m c (t.val - 1) (prevLt t)).2.2.1)
          (iblk m c 2 t)
          (k0_pay1 (iblk m c 0 t) (k0_pay9 (iblk m c 1 t)) (k0_pay10 (iblk m c 1 t) (iblk m c 2 t)) (k0_pay11 (grid0.coords t))
            (outsAt0 m c (t.val - 1) (prevLt t)).2.2.2) := by
  have hc0 : ¬cond0_0 (grid0.coords t) := fun h => h0 ((hcond0_0 t).mp h)
  have hc1 : cond0_1 (grid0.coords t) := (hcond0_1 t).mpr h1
  rw [outsAt0_C m c t h0 h1]
  exact Pieces.out_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (prevLt t)).2.1 (outsAt0 m c (t.val - 1) (prevLt t)).2.2.1 (outsAt0 m c (t.val - 1) (prevLt t)).2.2.2 hc0 hc1

/-! ## The induction over the points -/

/-- The running values of the global row of row r at point n, after its blocks 0 … n mod 16. -/
def acc (c : Dev nD) (n : ℕ) (r : Fin 512) : Acc :=
  accAfter (xrow m c (rowOf n r)) (trow m c (rowOf n r)) (prow m c (rowOf n r)) (n % 16)

/-- After point n the three accumulators hold, at row r, the row's running values. -/
def Inv (c : Dev nD) (n : ℕ) (h : n < cfg0.N) (r : Fin 512) : Prop :=
  (outsAt0 m c n h).2.1 (at0 r) = (acc m c n r).m ∧ (outsAt0 m c n h).2.2.1 (at0 r) = (acc m c n r).s
    ∧ (outsAt0 m c n h).2.2.2 (at0 r) = (acc m c n r).sx

theorem walk_first (c : Dev nD) (t : Fin cfg0.N) (h0 : t.val % 16 = 0) (r : Fin 512) : Inv m c t.val t.isLt r := by
  have h1 : ¬t.val % 16 = 15 := by omega
  have hj : ((grid0.coords t) 1).val = 0 := (coord1 t).trans h0
  have e : acc m c t.val r = Acc.init.step (blockOf (xrow m c (rowOf t.val r)) 0)
      (fun l => inRange (trow m c (rowOf t.val r)) (prow m c (rowOf t.val r)) (blockWord 0 l)) := by
    unfold acc; rw [h0]; rfl
  have hy : ∀ k, (iblk m c 0 t : S512x2048.Idx → EReal) (ix2 r k) = blockOf (xrow m c (rowOf t.val r)) 0 k :=
    fun k => by rw [blk_logits, h0]
  refine ⟨?_, ?_, ?_⟩
  · rw [first_m m c t h0 h1, e]
    exact step_m Acc.init (iblk m c 0 t) (k0_pay3 (F := Ideal)) r _ _ (init_max _) hy
  · rw [first_s m c t h0 h1, e]
    exact step_s Acc.init (iblk m c 0 t) (k0_pay3 (F := Ideal)) (k0_pay3 (F := Ideal)) (k0_pay4 (F := Ideal)) r _ _ (init_max _) (init_max _) (init_sum _) hy
  · rw [first_sx m c t h0 h1, e]
    have h := step_sx Acc.init (grid0.coords t) (iblk m c 0 t) (iblk m c 1 t) (iblk m c 2 t) (k0_pay5 (F := Ideal)) r
      (blockOf (xrow m c (rowOf t.val r)) 0) (trow m c (rowOf t.val r)) (prow m c (rowOf t.val r))
      (init_masked _) hy (blk_start m c t r) (blk_len m c t r)
    rw [hj] at h
    exact h

theorem walk_next (c : Dev nD) (t : Fin cfg0.N) (h0 : ¬t.val % 16 = 0) (r : Fin 512)
    (ih : Inv m c (t.val - 1) (prevLt t) r) : Inv m c t.val t.isLt r := by
  obtain ⟨ihm, ihs, ihsx⟩ := ih
  have hrow : rowOf (t.val - 1) r = rowOf t.val r := Fin.ext (by
    show ((t.val - 1) / 16) % 2 * 512 + r.val = (t.val / 16) % 2 * 512 + r.val
    omega)
  obtain ⟨j, hj, hj'⟩ : ∃ j, t.val % 16 = j + 1 ∧ (t.val - 1) % 16 = j := ⟨t.val % 16 - 1, by omega, by omega⟩
  have hc : ((grid0.coords t) 1).val = j + 1 := (coord1 t).trans hj
  have ep : acc m c (t.val - 1) r
      = accAfter (xrow m c (rowOf t.val r)) (trow m c (rowOf t.val r)) (prow m c (rowOf t.val r)) j := by
    unfold acc; rw [hrow, hj']
  have e : acc m c t.val r = (acc m c (t.val - 1) r).step (blockOf (xrow m c (rowOf t.val r)) (j + 1))
      (fun l => inRange (trow m c (rowOf t.val r)) (prow m c (rowOf t.val r)) (blockWord (j + 1) l)) := by
    rw [ep]; unfold acc; rw [hj]; rfl
  have hy : ∀ k, (iblk m c 0 t : S512x2048.Idx → EReal) (ix2 r k) = blockOf (xrow m c (rowOf t.val r)) (j + 1) k :=
    fun k => by rw [blk_logits, hj]
  refine ⟨?_, ?_, ?_⟩
  · rw [next_m m c t h0, e]
    exact step_m _ (iblk m c 0 t) _ r _ _ ihm hy
  · rw [next_s m c t h0, e]
    exact step_s _ (iblk m c 0 t) _ _ _ r _ _ ihm ihm ihs hy
  · rw [next_sx m c t h0, e]
    have h := step_sx (acc m c (t.val - 1) r) (grid0.coords t) (iblk m c 0 t) (iblk m c 1 t) (iblk m c 2 t)
      (outsAt0 m c (t.val - 1) (prevLt t)).2.2.2 r (blockOf (xrow m c (rowOf t.val r)) (j + 1))
      (trow m c (rowOf t.val r)) (prow m c (rowOf t.val r)) ihsx hy (blk_start m c t r) (blk_len m c t r)
    rw [hc] at h
    exact h

/-- The accumulators after every point. -/
theorem walk (c : Dev nD) (n : ℕ) : ∀ (h : n < cfg0.N) (r : Fin 512), Inv m c n h r := by
  induction n with
  | zero => exact fun h r => walk_first m c ⟨0, h⟩ rfl r
  | succ n ih =>
    intro h r
    by_cases h0 : (n + 1) % 16 = 0
    · exact walk_first m c ⟨n + 1, h⟩ h0 r
    · exact walk_next m c ⟨n + 1, h⟩ h0 r (ih (Nat.lt_of_succ_lt h) r)

/-! ## The output block after the last column block -/

/-- At the last column block of a row block the output holds, at row r, the global row's loss. -/
theorem out_row (c : Dev nD) (t : Fin cfg0.N) (h15 : t.val % 16 = 15) (r : Fin 512) :
    (outsAt0 m c t.val t.isLt).1 (at0 r)
      = kernelRow (xrow m c (rowOf t.val r)) (trow m c (rowOf t.val r)) (prow m c (rowOf t.val r)) := by
  have h0 : ¬t.val % 16 = 0 := by omega
  obtain ⟨hm, hs, hsx⟩ := walk m c t.val t.isLt r
  rw [last_out m c t h0 h15, out_apply, ← next_m m c t h0, ← next_s m c t h0, ← next_sx m c t h0, hm, hs, hsx,
    blk_len]
  unfold kernelRow acc
  rw [h15]

end Cert.KernelIdeal.Walk

end
-- ==== Proof.KernelArray.lean ====
/-
  The kernel's result array and the mean the host takes of it.

  The grid has 32 points t = 16 i + j (i < 2, j < 16). The output, a column of 1024 row values in two blocks
  of 512 rows, is written back only at the two points with j = 15, and point t writes block i = t / 16: rows
  i * 512 ... i * 512 + 511. Given what those two points leave in the staging buffer (row r of the block at
  point t holds the value of row (t / 16) * 512 + r), the two blocks tile the column: row R is covered by the
  point (R / 512) * 16 + 15, so the array ends holding the row values. The host then sums the column from
  zero and divides by 1024.0: the mean of the 1024 row values.
-/
import proofs.«107537_j26929444946218_1_alg».proof.Proof.Gen.KernelIdeal.Frame
import proofs.«107537_j26929444946218_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Array

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)
variable (rowLoss : Dev nD → Fin 1024 → EReal)

/-- Row r of the block that point t writes back: row (t / 16 mod 2) * 512 + r of the column. -/
def blockRow (t : ℕ) (r : Fin 512) : Fin 1024 :=
  ⟨(t / 16) % 2 * 512 + r.val, by have := r.isLt; have := Nat.mod_lt (t / 16) (by norm_num : 0 < 2); omega⟩

/-- The output's block index at point t is (t / 16, 0), decided over the grid. -/
theorem idx_facts : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- What a flushing point writes back is its block of the column of row values. -/
theorem flushed_eq
    (hout : ∀ (c : Dev nD) (t : Fin cfg0.N) (h15 : t.val % 16 = 15) (r : Fin 512),
      (outsAt0 m c t.val t.isLt).1 (ValueIdx.ix2 r (0 : Fin 1)) = rowLoss c (blockRow t.val r))
    (c : Dev nD) (t : Fin cfg0.N) (hf : (cfg0.win 3).flush t = true) :
    (dats m 0 c).flushed 3 t
      = ((cfg0.win 3).blk t).view.read (Elt Ideal) (fun y : S1024x1.Idx => rowLoss c (y 0)) := by
  have h15 : t.val % 16 = 15 := (flush0_3 t).mp hf
  obtain ⟨e0, e1⟩ := idx_facts t
  have hN : t.val < 32 := lt_of_lt_of_eq t.isLt N_0
  show (cfg0.win 3).cut (grid0.coords t) ((dats m 0 c).after 3 t) = _
  rw [after0_3]
  funext j
  rw [View.read_apply]
  have hj0 : (j 0).val < 512 := (j 0).isLt
  have hj1 : (j 1).val < 1 := (j 1).isLt
  have hx : (cfg0.win 3).xinj (grid0.coords t) j = ValueIdx.ix2 (⟨(j 0).val, hj0⟩ : Fin 512) (0 : Fin 1) := by
    funext a; apply Fin.ext
    match a with
    | ⟨0, _⟩ => rfl
    | ⟨1, _⟩ => show (j 1).val = 0; omega
  show (outsAt0 m c t.val t.isLt).1 ((cfg0.win 3).xinj (grid0.coords t) j)
    = rowLoss c ((((cfg0.win 3).blk t).view.emb j) 0)
  rw [hx, hout c t h15]
  refine congrArg (rowLoss c) (Fin.ext ?_)
  show (t.val / 16) % 2 * 512 + (j 0).val = win0_3.index t (0 : Fin 2) * 512 + 1 * (j 0).val
  rw [e0]; omega

/-- The result array after the run: the column of row values. -/
theorem final
    (hout : ∀ (c : Dev nD) (t : Fin cfg0.N) (h15 : t.val % 16 = 15) (r : Fin 512),
      (outsAt0 m c t.val t.isLt).1 (ValueIdx.ix2 r (0 : Fin 1)) = rowLoss c (blockRow t.val r))
    (c : Dev nD) : (dats m 0 c).arrAt 3 cfg0.N = fun y : S1024x1.Idx => rowLoss c (y 0) :=
  (dats m 0 c).arrAt_eq_of_cover 3 (fun y : S1024x1.Idx => rowLoss c (y 0))
    (fun t hf => flushed_eq m rowLoss hout c t hf) fun i => by
    have hi0 : (i 0 : Nat) < 1024 := (i 0).isLt
    have hi1 : (i 1 : Nat) < 1 := (i 1).isLt
    have hN : cfg0.N = 32 := N_0
    have hlt : (i 0 : Nat) / 512 * 16 + 15 < cfg0.N := by rw [hN]; omega
    obtain ⟨e0, e1⟩ := idx_facts ⟨(i 0 : Nat) / 512 * 16 + 15, hlt⟩
    refine ⟨⟨(i 0 : Nat) / 512 * 16 + 15, hlt⟩, (flush0_3 _).mpr (by show ((i 0 : Nat) / 512 * 16 + 15) % 16 = 15; omega), ?_⟩
    show i ∈ ((View.whole main_v2).slice (win0_3.rect ⟨(i 0 : Nat) / 512 * 16 + 15, hlt⟩)).set
    rw [View.set_slice_whole, Rect.mem_set_unit]
    intro a
    match a with
    | ⟨0, _⟩ =>
      show win0_3.index ⟨(i 0 : Nat) / 512 * 16 + 15, hlt⟩ (0 : Fin 2) * 512 ≤ (i 0 : Nat)
        ∧ (i 0 : Nat) < win0_3.index ⟨(i 0 : Nat) / 512 * 16 + 15, hlt⟩ (0 : Fin 2) * 512 + 512
      rw [e0]
      show ((i 0 : Nat) / 512 * 16 + 15) / 16 * 512 ≤ (i 0 : Nat) ∧ (i 0 : Nat) < ((i 0 : Nat) / 512 * 16 + 15) / 16 * 512 + 512
      omega
    | ⟨1, _⟩ =>
      show win0_3.index ⟨(i 0 : Nat) / 512 * 16 + 15, hlt⟩ (1 : Fin 2) * 1 ≤ (i 1 : Nat)
        ∧ (i 1 : Nat) < win0_3.index ⟨(i 0 : Nat) / 512 * 16 + 15, hlt⟩ (1 : Fin 2) * 1 + 1
      rw [e1]; omega

/-- The one-column indices are the row numbers. -/
def colEquiv : S1024x1.Idx ≃ Fin 1024 where
  toFun y := y 0
  invFun R := ValueIdx.ix2 R (0 : Fin 1)
  left_inv y := funext fun a => by
    match a with
    | ⟨0, _⟩ => rfl
    | ⟨1, h⟩ =>
      have h1 : (y ⟨1, h⟩).val < 1 := (y ⟨1, h⟩).isLt
      exact Fin.ext (by show 0 = (y ⟨1, h⟩).val; omega)
  right_inv _ := rfl

/-- The host's sum of the column from zero, divided by 1024.0: the mean of the row values. -/
theorem tail
    (hout : ∀ (c : Dev nD) (t : Fin cfg0.N) (h15 : t.val % 16 = 15) (r : Fin 512),
      (outsAt0 m c t.val t.isLt).1 (ValueIdx.ix2 r (0 : Fin 1)) = rowLoss c (blockRow t.val r))
    (c : Dev nD) :
    Pipeline.afterTail₀ cfgs (dats m) 0 (V0 m) [hostOps1] c main_v4 = fun _ => Cert.Loss.total (rowLoss c) := by
  unfold Pipeline.afterTail₀
  show StableHlo.after hostOps1 _ (Proc.devRef .tc main_v4) = _
  after_results
  have harr : Pipeline.withArrays (cfgs 0).spec c (V0 m c) (fun w => (dats m 0 c).arrAt w (cfgs 0).N) (Proc.devRef .tc main_v2)
      = fun y : S1024x1.Idx => rowLoss c (y 0) :=
    (Pipeline.withArrays_arr spec0 launch0.win.arr_inj c _ _ 3).trans (final m rowLoss hout c)
  rw [harr]
  funext i
  have hsum : Host.reduceAdd (F := Ideal) (fun y : S1024x1.Idx => rowLoss c (y 0)) (constant (F := Ideal) S_ .f32 0x00000000#32)
      reducesTo_S1024x1_S_d0_1 h_S_ i = ∑ R : Fin 1024, rowLoss c R := by
    simp only [Host.reduceAdd, Ideal.hostReduceAdd_def]
    rw [Ideal.hostReduceAdd_total reducesTo_S1024x1_S_d0_1 (fun b => b.elim0)]
    show Ideal.ofBits .f32 0x00000000#32 + _ = _
    rw [Ideal.ofBits_zero_f32, zero_add]
    exact Fintype.sum_equiv colEquiv _ _ (fun _ => rfl)
  show Ideal.div (Host.reduceAdd (F := Ideal) (fun y : S1024x1.Idx => rowLoss c (y 0)) (constant (F := Ideal) S_ .f32 0x00000000#32)
      reducesTo_S1024x1_S_d0_1 h_S_ i) (Ideal.ofBits .f32 0x44800000#32) = _
  rw [hsum]
  rfl

/-- The kernel's run: the result ends at the mean of the row values, the arguments unchanged. -/
theorem run
    (hout : ∀ (c : Dev nD) (t : Fin cfg0.N) (h15 : t.val % 16 = 15) (r : Fin 512),
      (outsAt0 m c t.val t.isLt).1 (ValueIdx.ix2 r (0 : Fin 1)) = rowLoss c (blockRow t.val r)) :
    θ_run defs (onTc (τ := τ) (main (F := Ideal))) ⟨m, fun _ => 0, ρ⟩ fun r => ∀ c : Dev nD,
      r.2.mem ((c.tc : Thread nD τ).loc main_v4) = (fun _ => Cert.Loss.total (rowLoss c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail m rowLoss hout c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Array

end
-- ==== Proof.lean ====
/-
  The cross-entropy loss of 1024 rows of 32768 logits over a ragged range of columns per row, computed two ways.

  One program shifts each row by its maximum M, takes L = log (∑ exp (x - M)), sums (x - M) - L over the columns
  c of the row's range t ≤ c ≤ t + p, negates, divides by p + 1, and averages over the rows. The other walks each
  row in 16 blocks of 2048 columns, carrying a running maximum m, the sum s of exponentials rescaled to the
  running maximum, and the sum sx of the logits in the range, returns (m + log s) - sx / (p + 1) per row, and
  averages over the rows.

  On finite logits both m + log s and M + L are the logarithm of ∑ exp x, whatever real the maximum is: rescaling
  by exp (old maximum - new maximum) turns a sum of exp (x - old) into the sum of exp (x - new), and the shift
  cancels in M + log ∑ exp (x - M). When 0 ≤ t, 0 ≤ p and t + p < 32768 the range holds exactly p + 1 columns, so
  the sum over the range of (x - (M + L)) is sx - (p + 1) (M + L), and dividing its negation by p + 1 gives
  (M + L) - sx / (p + 1). So the row losses agree, and so do their means.

  The three programs' runs: the two kernel programs by their frame runs; the reference by its run as a straight
  line of host operations. The kernel's result is read off its frame run: the accumulators by induction over the
  grid points, the output block at the last column block of each row block, the result array from its two
  blocks, and the mean by the host operations after the region.
-/
import proofs.«107537_j26929444946218_1_alg».proof.Defs
import proofs.«107537_j26929444946218_1_alg».proof.Proof.Gen.Kernel
import proofs.«107537_j26929444946218_1_alg».proof.Proof.Gen.Kernel.Frame
import proofs.«107537_j26929444946218_1_alg».proof.Proof.Gen.KernelIdeal
import proofs.«107537_j26929444946218_1_alg».proof.Proof.Gen.KernelIdeal.Frame
import proofs.«107537_j26929444946218_1_alg».proof.Proof.Gen.ReferenceIdeal
import proofs.«107537_j26929444946218_1_alg».proof.Proof.Gen.Pre_finite_inputs
import proofs.«107537_j26929444946218_1_alg».proof.Proof.Spec
import proofs.«107537_j26929444946218_1_alg».proof.Proof.RowMath
import proofs.«107537_j26929444946218_1_alg».proof.Proof.PreFacts
import proofs.«107537_j26929444946218_1_alg».proof.Proof.RefRun
import proofs.«107537_j26929444946218_1_alg».proof.Proof.RefValue
import proofs.«107537_j26929444946218_1_alg».proof.Proof.KernelWalk
import proofs.«107537_j26929444946218_1_alg».proof.Proof.KernelArray
import Idealize.ShloMosaic.Adequacy
import Idealize.ShloMosaic.Init

noncomputable section

namespace Cert.Proof

open Idealize.ShloMosaic Idealize.SL.Sem

/-- The word-level kernel runs and keeps its arguments. -/
theorem frame_p : Cert.frame_Kernel := fun m ρ _ => Cert.Kernel.Gen.frame m ρ

/-- So does the kernel read at the exact values. -/
theorem frame_pi : Cert.frame_KernelIdeal := fun m ρ _ => Cert.KernelIdeal.Gen.frame m ρ

/-- And the reference: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Nothing was rewritten between the two kernel programs. -/
theorem preserves : Cert.preserves_Kernel_KernelIdeal := trivial

/-- From arguments that agree, with finite logits and every row's range inside the columns, both programs end at
    the mean of the row losses: the blocked walk's row loss is the shifted log-softmax's. -/
theorem algebraic : Cert.algebraic_KernelIdeal_ReferenceIdeal := by
  intro m ρ m' ρ' hpre hagree
  have hfacts := fun c => Cert.PreFacts.of_pre _ _ _ (hpre c)
  refine ⟨fun c _ => Cert.Loss.total fun R => Cert.Loss.kernelRow (Cert.KernelIdeal.Walk.xrow m c R)
      (Cert.KernelIdeal.Walk.trow m c R) (Cert.KernelIdeal.Walk.prow m c R),
    Cert.KernelIdeal.Array.run m ρ
      (fun c R => Cert.Loss.kernelRow (Cert.KernelIdeal.Walk.xrow m c R) (Cert.KernelIdeal.Walk.trow m c R)
        (Cert.KernelIdeal.Walk.prow m c R))
      (fun c t h15 r => Cert.KernelIdeal.Walk.out_row m c t h15 r), ?_⟩
  refine (θ_run Cert.ReferenceIdeal.defs _ _).mono (fun _ h c => ⟨?_, (h c).2⟩)
    (Cert.ReferenceIdeal.RefRun.run (F := Ideal) m' ρ')
  refine (h c).1.trans ?_
  rw [(hagree c).1, (hagree c).2.1, (hagree c).2.2]
  refine (Cert.ReferenceIdeal.RefValue.result_eq _ _ _).trans ?_
  funext _
  refine congrArg Cert.Loss.total (funext fun R => ?_)
  obtain ⟨hfin, hrng⟩ := hfacts c
  exact (Cert.Loss.kernelRow_eq_refRow _ _ _ (hfin R) (hrng R).1 (hrng R).2.1 (hrng R).2.2).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
